-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x6400000 : Shape := ⟨2, ![2, 6400000]⟩
abbrev S6400000x16 : Shape := ⟨2, ![6400000, 16]⟩
abbrev S100000 : Shape := ⟨1, ![100000]⟩
abbrev S16x16 : Shape := ⟨2, ![16, 16]⟩
abbrev S16 : Shape := ⟨1, ![16]⟩
abbrev S16x6 : Shape := ⟨2, ![16, 6]⟩
abbrev S6 : Shape := ⟨1, ![6]⟩
abbrev S6x6 : Shape := ⟨2, ![6, 6]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S6400000x16 : S_.BroadcastsInDim S6400000x16 (![] : Fin 0 → Fin S6400000x16.rank)
  reducesTo_S6400000x16_S_d0_1 : S6400000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_
  bcast_S_S6x6 : S_.BroadcastsInDim S6x6 (![] : Fin 0 → Fin S6x6.rank)
  reducesTo_S6x6_S_d0_1 : S6x6.ReducesTo [0, 1] S_

variable [Facts]

def fn_part2 {F : FTy → Type} [FloatOps F] (main_arg9 : FVec F S6 .f32) (main_arg10 : FVec F S6x6 .f32) (main_arg11 : FVec F S6 .f32) (main_v33 : IVec S_ 1) : IVec S_ 1 :=
  let main_v34 : FVec F S6 .f32 := Host.absf main_arg9
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  let main_v39 : FVec F S6x6 .f32 := Host.absf main_arg10
  let main_cst_14 : FVec F S_ .f32 := constant S_ .f32 0x7F800000#32
  let main_v40 : FVec F S6x6 .f32 := broadcastInDim S6x6 ![] bcast_S_S6x6 main_cst_14
  let main_v41 : IVec S6x6 1 := cmpf .olt main_v39 main_v40
  let main_c_15 : IVec S_ 1 := constantI S_ 1 1#1
  let main_v42 : IVec S_ 1 := (fun x v => Host.reduce IntOp.andi x v reducesTo_S6x6_S_d0_1 h_S_) main_v41 main_c_15
  let main_v43 : IVec S_ 1 := andi main_v38 main_v42
  let main_v44 : FVec F S6 .f32 := Host.absf main_arg11
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  main_v48

def fn_part1 {F : FTy → Type} [FloatOps F] (main_arg6 : FVec F S16x16 .f32) (main_arg7 : FVec F S16 .f32) (main_arg8 : FVec F S16x6 .f32) (main_arg9 : FVec F S6 .f32) (main_arg10 : FVec F S6x6 .f32) (main_arg11 : FVec F S6 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x6 .f32 := Host.absf main_arg8
  let main_cst_10 : FVec F S_ .f32 := constant S_ .f32 0x7F800000#32
  let main_v30 : FVec F S16x6 .f32 := broadcastInDim S16x6 ![] bcast_S_S16x6 main_cst_10
  let main_v31 : IVec S16x6 1 := cmpf .olt main_v29 main_v30
  let main_c_11 : IVec S_ 1 := constantI S_ 1 1#1
  let main_v32 : IVec S_ 1 := (fun x v => Host.reduce IntOp.andi x v reducesTo_S16x6_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x16 .f32) (main_arg1 : IVec S2x6400000 32) (main_arg2 : FVec F S6400000x16 .f32) (main_arg3 : IVec S100000 32) (main_arg4 : FVec F S16x16 .f32) (main_arg5 : FVec F S16 .f32) (main_arg6 : FVec F S16x16 .f32) (main_arg7 : FVec F S16 .f32) (main_arg8 : FVec F S16x6 .f32) (main_arg9 : FVec F S6 .f32) (main_arg10 : FVec F S6x6 .f32) (main_arg11 : FVec F S6 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S6400000x16 .f32 := Host.absf main_arg2
  let main_cst_0 : FVec F S_ .f32 := constant S_ .f32 0x7F800000#32
  let main_v5 : FVec F S6400000x16 .f32 := broadcastInDim S6400000x16 ![] bcast_S_S6400000x16 main_cst_0
  let main_v6 : IVec S6400000x16 1 := cmpf .olt main_v4 main_v5
  let main_c_1 : IVec S_ 1 := constantI S_ 1 1#1
  let main_v7 : IVec S_ 1 := (fun x v => Host.reduce IntOp.andi x v reducesTo_S6400000x16_S_d0_1 h_S_) main_v6 main_c_1
  let main_v8 : IVec S_ 1 := andi main_v3 main_v7
  let main_v9 : FVec F S16x16 .f32 := Host.absf main_arg4
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_v13 main_v16
-- ==== Kernel.lean ====
abbrev S100000x16 : Shape := ⟨2, ![100000, 16]⟩
abbrev S2x6400000 : Shape := ⟨2, ![2, 6400000]⟩
abbrev S6400000x16 : Shape := ⟨2, ![6400000, 16]⟩
abbrev S100000 : Shape := ⟨1, ![100000]⟩
abbrev S16x16 : Shape := ⟨2, ![16, 16]⟩
abbrev S16 : Shape := ⟨1, ![16]⟩
abbrev S16x6 : Shape := ⟨2, ![16, 6]⟩
abbrev S6 : Shape := ⟨1, ![6]⟩
abbrev S6x6 : Shape := ⟨2, ![6, 6]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S800000x128 : Shape := ⟨2, ![800000, 128]⟩
abbrev S8000x128 : Shape := ⟨2, ![8000, 128]⟩
abbrev S5000x16 : Shape := ⟨2, ![5000, 16]⟩
abbrev S1x16 : Shape := ⟨2, ![1, 16]⟩
abbrev S100000x6 : Shape := ⟨2, ![100000, 6]⟩
abbrev S5000x6 : Shape := ⟨2, ![5000, 6]⟩
abbrev S1x6 : Shape := ⟨2, ![1, 6]⟩
abbrev S1000x6 : Shape := ⟨2, ![1000, 6]⟩
abbrev S100000x1 : Shape := ⟨2, ![100000, 1]⟩
abbrev S1000 : Shape := ⟨1, ![1000]⟩
abbrev S1000x1 : Shape := ⟨2, ![1000, 1]⟩

abbrev nBuf : Space → Nat
  | .hbm => 83
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S6400000x16, .f32⟩
  | .hbm, ⟨3, _⟩ => ⟨S100000, .i32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x6, .f32⟩
  | .hbm, ⟨9, _⟩ => ⟨S6, .f32⟩
  | .hbm, ⟨10, _⟩ => ⟨S6x6, .f32⟩
  | .hbm, ⟨11, _⟩ => ⟨S6, .f32⟩
  | .hbm, ⟨12, _⟩ => ⟨S1x6400000, .i32⟩
  | .hbm, ⟨13, _⟩ => ⟨S6400000, .i32⟩
  | .hbm, ⟨14, _⟩ => ⟨S1x6400000, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x16, .f32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S6400000x16, .f32⟩
  | .hbm, ⟨29, _⟩ => ⟨S_, .f32⟩
  | .hbm, ⟨30, _⟩ => ⟨S100000x16, .f32⟩
  | .hbm, ⟨31, _⟩ => ⟨S6400000x1, .i32⟩
  | .hbm, ⟨32, _⟩ => ⟨S100000x16, .f32⟩
  | .hbm, ⟨33, _⟩ => ⟨S100000x16, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x16, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S6400000x16, .f32⟩
  | .hbm, ⟨47, _⟩ => ⟨S_, .f32⟩
  | .hbm, ⟨48, _⟩ => ⟨S100000x16, .f32⟩
  | .hbm, ⟨49, _⟩ => ⟨S6400000x1, .i32⟩
  | .hbm, ⟨50, _⟩ => ⟨S100000x16, .f32⟩
  | .hbm, ⟨51, _⟩ => ⟨S100000x6, .f32⟩
  | .hbm, ⟨52, _⟩ => ⟨S_, .f32⟩
  | .hbm, ⟨53, _⟩ => ⟨S1000x6, .f32⟩
  | .hbm, ⟨54, _⟩ => ⟨S100000x1, .i32⟩
  | .hbm, ⟨55, _⟩ => ⟨S1000x6, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S1000, .f32⟩
  | .hbm, ⟨60, _⟩ => ⟨S100000x1, .i32⟩
  | .hbm, ⟨61, _⟩ => ⟨S1000, .f32⟩
  | .hbm, ⟨62, _⟩ => ⟨S_, .f32⟩
  | .hbm, ⟨63, _⟩ => ⟨S1000, .f32⟩
  | .hbm, ⟨64, _⟩ => ⟨S1000, .f32⟩
  | .hbm, ⟨65, _⟩ => ⟨S1000x1, .f32⟩
  | .hbm, ⟨66, _⟩ => ⟨S1000x6, .f32⟩
  | .hbm, ⟨67, _⟩ => ⟨S1000x6, .f32⟩
  | .hbm, ⟨68, _⟩ => ⟨S_, .f32⟩
  | .hbm, ⟨69, _⟩ => ⟨S1000, .f32⟩
  | .hbm, ⟨70, _⟩ => ⟨S_, .f32⟩
  | .hbm, ⟨71, _⟩ => ⟨S1000, .f32⟩
  | .hbm, ⟨72, _⟩ => ⟨S1000, .f32⟩
  | .hbm, ⟨73, _⟩ => ⟨S1000x1, .f32⟩
  | .hbm, ⟨74, _⟩ => ⟨S1000x6, .f32⟩
  | .hbm, ⟨75, _⟩ => ⟨S1000x6, .f32⟩
  | .hbm, ⟨76, _⟩ => ⟨S1000x6, .f32⟩
  | .hbm, ⟨77, _⟩ => ⟨S_, .f32⟩
  | .hbm, ⟨78, _⟩ => ⟨S1000, .f32⟩
  | .hbm, ⟨79, _⟩ => ⟨S1000x1, .f32⟩
  | .hbm, ⟨80, _⟩ => ⟨S1000x1, .f32⟩
  | .hbm, ⟨81, _⟩ => ⟨S1000x6, .f32⟩
  | .hbm, ⟨82, _⟩ => ⟨S1000x6, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S16x16, .f32⟩
  | .local _ .vmem, ⟨11, _⟩ => ⟨S16, .f32⟩
  | .local _ .vmem, ⟨12, _⟩ => ⟨S16x16, .f32⟩
  | .local _ .vmem, ⟨13, _⟩ => ⟨S16, .f32⟩
  | .local _ .vmem, ⟨14, _⟩ => ⟨S5000x16, .f32⟩
  | .local _ .vmem, ⟨15, _⟩ => ⟨S5000x16, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S5000x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S16x6, .f32⟩
  | .local _ .vmem, ⟨27, _⟩ => ⟨S6, .f32⟩
  | .local _ .vmem, ⟨28, _⟩ => ⟨S6x6, .f32⟩
  | .local _ .vmem, ⟨29, _⟩ => ⟨S6, .f32⟩
  | .local _ .vmem, ⟨30, _⟩ => ⟨S5000x6, .f32⟩
  | .local _ .vmem, ⟨31, _⟩ => ⟨S5000x6, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_call0_cst_0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_cst_1 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_v46 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x6 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S6 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S6x6 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S6 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x6 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000x16_S800000x128 : S6400000x16.ShapeCasts S800000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S800000x128_S6400000x16 : S800000x128.ShapeCasts S6400000x16
  bcast_S_S100000x16 : S_.BroadcastsInDim S100000x16 (![] : Fin 0 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x6_S16x6_0_0 : ∀ a, (![0, 0] : Fin 2 → Nat) a + S16x6.size a ≤ S16x6.size a
  h_S16x6 : 0 < S16x6.numel
  inb_S6_S6_0 : ∀ a, (![0] : Fin 1 → Nat) a + S6.size a ≤ S6.size a
  h_S6 : 0 < S6.numel
  shapeCasts_S6_S1x6 : S6.ShapeCasts S1x6
  broadcasts_S1x6_S5000x6 : S1x6.Broadcasts S5000x6
  inb_S6x6_S6x6_0_0 : ∀ a, (![0, 0] : Fin 2 → Nat) a + S6x6.size a ≤ S6x6.size a
  h_S6x6 : 0 < S6x6.numel
  inb_S5000x6_S5000x6_0_0 : ∀ a, (![0, 0] : Fin 2 → Nat) a + S5000x6.size a ≤ S5000x6.size a
  h_S5000x6 : 0 < S5000x6.numel
  bcast_S_S1000x6 : S_.BroadcastsInDim S1000x6 (![] : Fin 0 → Fin S1000x6.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x6_0_1 : S1000x1.BroadcastsInDim S1000x6 (![0, 1] : Fin 2 → Fin S1000x6.rank)
  reducesTo_S1000x6_S1000_d1 : S1000x6.ReducesTo [1] S1000
  h_S_ : 0 < S_.numel
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S5000x16_S16x16_S5000x16_1_0_0_1_n_n_wf : DotDims.WF S5000x16 S16x16 S5000x16 [1] [0] [0] [1] [] []
  dot_S5000x16_S16x6_S5000x6_1_0_0_1_n_n_wf : DotDims.WF S5000x16 S16x6 S5000x6 [1] [0] [0] [1] [] []
  dot_S5000x6_S6x6_S5000x6_1_0_0_1_n_n_wf : DotDims.WF S5000x6 S6x6 S5000x6 [1] [0] [0] [1] [] []
  scatter_S1000x6_S100000x1_S100000x6_1_0_0_1_wf : ScatterDims.WF S1000x6 S100000x1 S100000x6 [1] [0] [0] 1
  scatter_S1000_S100000x1_S100000_n_0_0_1_wf : ScatterDims.WF S1000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x6.size a ≤ S16x6.size a
  hwx3_2 : ∀ i : grid3.Coords, EltTy.bits .f32 = 32 ∨ (Rect.block (s := S16x6) S16x6.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S6.size a ≤ S6.size a
  hwx3_3 : ∀ i : grid3.Coords, EltTy.bits .f32 = 32 ∨ (Rect.block (s := S6) S6.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S6x6.size a ≤ S6x6.size a
  hwx3_4 : ∀ i : grid3.Coords, EltTy.bits .f32 = 32 ∨ (Rect.block (s := S6x6) S6x6.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S6.size a ≤ S6.size a
  hwx3_5 : ∀ i : grid3.Coords, EltTy.bits .f32 = 32 ∨ (Rect.block (s := S6) S6.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x6.size a ≤ S100000x6.size a
  hwx3_6 : ∀ i : grid3.Coords, EltTy.bits .f32 = 32 ∨ (Rect.block (s := S100000x6) S5000x6.size (cc3_transform_6 i) (hinb3_6 i)).WholeWords (EltTy.packing .f32)

variable [Facts₀]

def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x6_S5000x6_1_0_0_1_n_n : DotDims S5000x16 S16x6 S5000x6 where
  lhsContracting := [1]
  rhsContracting := [0]
  lhsNonContracting := [0]
  rhsNonContracting := [1]
  lhsBatch := []
  rhsBatch := []
  wf := dot_S5000x16_S16x6_S5000x6_1_0_0_1_n_n_wf
def dot_S5000x6_S6x6_S5000x6_1_0_0_1_n_n : DotDims S5000x6 S6x6 S5000x6 where
  lhsContracting := [1]
  rhsContracting := [0]
  lhsNonContracting := [0]
  rhsNonContracting := [1]
  lhsBatch := []
  rhsBatch := []
  wf := dot_S5000x6_S6x6_S5000x6_1_0_0_1_n_n_wf
def scatter_S1000x6_S100000x1_S100000x6_1_0_0_1 : ScatterDims S1000x6 S100000x1 S100000x6 where
  updateWindowDims := [1]
  insertedWindowDims := [0]
  scatterDimsToOperandDims := [0]
  indexVectorDim := 1
  wf := scatter_S1000x6_S100000x1_S100000x6_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x6.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S6.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S6x6.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S6.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S5000x6.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x6400000 : Shape := ⟨2, ![2, 6400000]⟩
abbrev S6400000x16 : Shape := ⟨2, ![6400000, 16]⟩
abbrev S100000 : Shape := ⟨1, ![100000]⟩
abbrev S16x16 : Shape := ⟨2, ![16, 16]⟩
abbrev S16 : Shape := ⟨1, ![16]⟩
abbrev S16x6 : Shape := ⟨2, ![16, 6]⟩
abbrev S6 : Shape := ⟨1, ![6]⟩
abbrev S6x6 : Shape := ⟨2, ![6, 6]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1x16 : Shape := ⟨2, ![1, 16]⟩
abbrev S100000x6 : Shape := ⟨2, ![100000, 6]⟩
abbrev S1x6 : Shape := ⟨2, ![1, 6]⟩
abbrev S1000x6 : Shape := ⟨2, ![1000, 6]⟩
abbrev S100000x1 : Shape := ⟨2, ![100000, 1]⟩
abbrev S1000 : Shape := ⟨1, ![1000]⟩
abbrev S1000x1 : Shape := ⟨2, ![1000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S6400000x16, .f32⟩
  | .hbm, ⟨3, _⟩ => ⟨S100000, .i32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x6, .f32⟩
  | .hbm, ⟨9, _⟩ => ⟨S6, .f32⟩
  | .hbm, ⟨10, _⟩ => ⟨S6x6, .f32⟩
  | .hbm, ⟨11, _⟩ => ⟨S6, .f32⟩
  | .hbm, ⟨12, _⟩ => ⟨S1x6400000, .i32⟩
  | .hbm, ⟨13, _⟩ => ⟨S6400000, .i32⟩
  | .hbm, ⟨14, _⟩ => ⟨S1x6400000, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x16, .f32⟩
  | .hbm, ⟨25, _⟩ => ⟨S6400000x16, .f32⟩
  | .hbm, ⟨26, _⟩ => ⟨S_, .f32⟩
  | .hbm, ⟨27, _⟩ => ⟨S6400000x16, .f32⟩
  | .hbm, ⟨28, _⟩ => ⟨S6400000x16, .f32⟩
  | .hbm, ⟨29, _⟩ => ⟨S_, .f32⟩
  | .hbm, ⟨30, _⟩ => ⟨S100000x16, .f32⟩
  | .hbm, ⟨31, _⟩ => ⟨S6400000x1, .i32⟩
  | .hbm, ⟨32, _⟩ => ⟨S100000x16, .f32⟩
  | .hbm, ⟨33, _⟩ => ⟨S100000x16, .f32⟩
  | .hbm, ⟨34, _⟩ => ⟨S100000x16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S_, .f32⟩
  | .hbm, ⟨39, _⟩ => ⟨S100000x16, .f32⟩
  | .hbm, ⟨40, _⟩ => ⟨S100000x16, .f32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S100000x16, .f32⟩
  | .hbm, ⟨45, _⟩ => ⟨S_, .f32⟩
  | .hbm, ⟨46, _⟩ => ⟨S100000x16, .f32⟩
  | .hbm, ⟨47, _⟩ => ⟨S100000x16, .f32⟩
  | .hbm, ⟨48, _⟩ => ⟨S1x6400000, .i32⟩
  | .hbm, ⟨49, _⟩ => ⟨S6400000, .i32⟩
  | .hbm, ⟨50, _⟩ => ⟨S1x6400000, .i32⟩
  | .hbm, ⟨51, _⟩ => ⟨S6400000, .i32⟩
  | .hbm, ⟨52, _⟩ => ⟨S_, .i32⟩
  | .hbm, ⟨53, _⟩ => ⟨S6400000, .i32⟩
  | .hbm, ⟨54, _⟩ => ⟨S6400000, .i1⟩
  | .hbm, ⟨55, _⟩ => ⟨S_, .i32⟩
  | .hbm, ⟨56, _⟩ => ⟨S6400000, .i32⟩
  | .hbm, ⟨57, _⟩ => ⟨S6400000, .i32⟩
  | .hbm, ⟨58, _⟩ => ⟨S6400000, .i32⟩
  | .hbm, ⟨59, _⟩ => ⟨S6400000x1, .i32⟩
  | .hbm, ⟨60, _⟩ => ⟨S6400000x16, .f32⟩
  | .hbm, ⟨61, _⟩ => ⟨S6400000x16, .f32⟩
  | .hbm, ⟨62, _⟩ => ⟨S_, .f32⟩
  | .hbm, ⟨63, _⟩ => ⟨S6400000x16, .f32⟩
  | .hbm, ⟨64, _⟩ => ⟨S6400000x16, .f32⟩
  | .hbm, ⟨65, _⟩ => ⟨S_, .f32⟩
  | .hbm, ⟨66, _⟩ => ⟨S100000x16, .f32⟩
  | .hbm, ⟨67, _⟩ => ⟨S6400000x1, .i32⟩
  | .hbm, ⟨68, _⟩ => ⟨S100000x16, .f32⟩
  | .hbm, ⟨69, _⟩ => ⟨S100000x16, .f32⟩
  | .hbm, ⟨70, _⟩ => ⟨S100000x6, .f32⟩
  | .hbm, ⟨71, _⟩ => ⟨S1x6, .f32⟩
  | .hbm, ⟨72, _⟩ => ⟨S100000x6, .f32⟩
  | .hbm, ⟨73, _⟩ => ⟨S100000x6, .f32⟩
  | .hbm, ⟨74, _⟩ => ⟨S_, .f32⟩
  | .hbm, ⟨75, _⟩ => ⟨S100000x6, .f32⟩
  | .hbm, ⟨76, _⟩ => ⟨S100000x6, .f32⟩
  | .hbm, ⟨77, _⟩ => ⟨S100000x6, .f32⟩
  | .hbm, ⟨78, _⟩ => ⟨S1x6, .f32⟩
  | .hbm, ⟨79, _⟩ => ⟨S100000x6, .f32⟩
  | .hbm, ⟨80, _⟩ => ⟨S100000x6, .f32⟩
  | .hbm, ⟨81, _⟩ => ⟨S_, .f32⟩
  | .hbm, ⟨82, _⟩ => ⟨S1000x6, .f32⟩
  | .hbm, ⟨83, _⟩ => ⟨S100000x1, .i32⟩
  | .hbm, ⟨84, _⟩ => ⟨S1000x6, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S1000, .f32⟩
  | .hbm, ⟨89, _⟩ => ⟨S100000x1, .i32⟩
  | .hbm, ⟨90, _⟩ => ⟨S1000, .f32⟩
  | .hbm, ⟨91, _⟩ => ⟨S_, .f32⟩
  | .hbm, ⟨92, _⟩ => ⟨S1000, .f32⟩
  | .hbm, ⟨93, _⟩ => ⟨S1000, .f32⟩
  | .hbm, ⟨94, _⟩ => ⟨S1000x1, .f32⟩
  | .hbm, ⟨95, _⟩ => ⟨S1000x6, .f32⟩
  | .hbm, ⟨96, _⟩ => ⟨S1000x6, .f32⟩
  | .hbm, ⟨97, _⟩ => ⟨S_, .f32⟩
  | .hbm, ⟨98, _⟩ => ⟨S1000, .f32⟩
  | .hbm, ⟨99, _⟩ => ⟨S_, .f32⟩
  | .hbm, ⟨100, _⟩ => ⟨S1000, .f32⟩
  | .hbm, ⟨101, _⟩ => ⟨S1000, .f32⟩
  | .hbm, ⟨102, _⟩ => ⟨S1000x1, .f32⟩
  | .hbm, ⟨103, _⟩ => ⟨S1000x6, .f32⟩
  | .hbm, ⟨104, _⟩ => ⟨S1000x6, .f32⟩
  | .hbm, ⟨105, _⟩ => ⟨S1000x6, .f32⟩
  | .hbm, ⟨106, _⟩ => ⟨S_, .f32⟩
  | .hbm, ⟨107, _⟩ => ⟨S1000, .f32⟩
  | .hbm, ⟨108, _⟩ => ⟨S1000x1, .f32⟩
  | .hbm, ⟨109, _⟩ => ⟨S1000x1, .f32⟩
  | .hbm, ⟨110, _⟩ => ⟨S1000x6, .f32⟩
  | .hbm, ⟨111, _⟩ => ⟨S1000x6, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_1 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call3_cst : Ref sig .tc := ⟨.hbm, 62, rfl⟩
abbrev main_call3_v0 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call4_cst : Ref sig .tc := ⟨.hbm, 74, rfl⟩
abbrev main_call4_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call5_cst : Ref sig .tc := ⟨.hbm, 97, rfl⟩
abbrev main_call5_v0 : Ref sig .tc := ⟨.hbm, 98, rfl⟩
abbrev main_call5_cst_0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_v6 : Ref sig .tc := ⟨.hbm, 105, rfl⟩
abbrev main_call5_cst_1 : Ref sig .tc := ⟨.hbm, 106, rfl⟩
abbrev main_call5_v7 : Ref sig .tc := ⟨.hbm, 107, rfl⟩
abbrev main_call5_v8 : Ref sig .tc := ⟨.hbm, 108, rfl⟩
abbrev main_call5_v9 : Ref sig .tc := ⟨.hbm, 109, rfl⟩
abbrev main_call5_v10 : Ref sig .tc := ⟨.hbm, 110, rfl⟩
abbrev main_v65 : Ref sig .tc := ⟨.hbm, 111, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x16 : S_.BroadcastsInDim S6400000x16 (![] : Fin 0 → Fin S6400000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S_S100000x6 : S_.BroadcastsInDim S100000x6 (![] : Fin 0 → Fin S100000x6.rank)
  bcast_S_S1000x6 : S_.BroadcastsInDim S1000x6 (![] : Fin 0 → Fin S1000x6.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x6_0_1 : S1000x1.BroadcastsInDim S1000x6 (![0, 1] : Fin 2 → Fin S1000x6.rank)
  reducesTo_S1000x6_S1000_d1 : S1000x6.ReducesTo [1] S1000
  h_S_ : 0 < S_.numel
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x16_S100000x16_1_0_0_1_n_n_wf : DotDims.WF S100000x16 S16x16 S100000x16 [1] [0] [0] [1] [] []
  dot_S100000x16_S16x6_S100000x6_1_0_0_1_n_n_wf : DotDims.WF S100000x16 S16x6 S100000x6 [1] [0] [0] [1] [] []
  dot_S100000x6_S6x6_S100000x6_1_0_0_1_n_n_wf : DotDims.WF S100000x6 S6x6 S100000x6 [1] [0] [0] [1] [] []
  scatter_S1000x6_S100000x1_S100000x6_1_0_0_1_wf : ScatterDims.WF S1000x6 S100000x1 S100000x6 [1] [0] [0] 1
  scatter_S1000_S100000x1_S100000_n_0_0_1_wf : ScatterDims.WF S1000 S100000x1 S100000 [] [0] [0] 1

variable [Facts₀]

def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x6_S100000x6_1_0_0_1_n_n : DotDims S100000x16 S16x6 S100000x6 where
  lhsContracting := [1]
  rhsContracting := [0]
  lhsNonContracting := [0]
  rhsNonContracting := [1]
  lhsBatch := []
  rhsBatch := []
  wf := dot_S100000x16_S16x6_S100000x6_1_0_0_1_n_n_wf
def dot_S100000x6_S6x6_S100000x6_1_0_0_1_n_n : DotDims S100000x6 S6x6 S100000x6 where
  lhsContracting := [1]
  rhsContracting := [0]
  lhsNonContracting := [0]
  rhsNonContracting := [1]
  lhsBatch := []
  rhsBatch := []
  wf := dot_S100000x6_S6x6_S100000x6_1_0_0_1_n_n_wf
def scatter_S1000x6_S100000x1_S100000x6_1_0_0_1 : ScatterDims S1000x6 S100000x1 S100000x6 where
  updateWindowDims := [1]
  insertedWindowDims := [0]
  scatterDimsToOperandDims := [0]
  indexVectorDim := 1
  wf := scatter_S1000x6_S100000x1_S100000x6_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

class Facts : Prop extends Facts₀ where

variable [Facts]
-- ==== Proof.KernelRun.lean ====
/-
  The idealized kernel's run with its result named.

  @main is ten segments: host stretches and four pipelined regions. The generated frame folds the buffer contents
  through them, from the launch memory to the contents `W10` at the return, and reads the arguments off that fold.
  The same launch read at the result buffer says that every execution ends with the result holding `W10` there: the
  value of the last host stretch applied to what the regions and earlier stretches left.
-/
import proofs.«131487_j53807350284451_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W10` and the arguments as launched. -/
theorem run : θ_run defs (onTc (τ := τ) (main (F := F))) ⟨m, fun _ => 0, ρ⟩ (fun r => ∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v46 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.RunValue

end
-- ==== Proof.EdgeRegion.lean ====
/-
  The two edge-message regions, each as one function of its input arrays.

  A region's body adds its two [8000, 128] blocks entry by entry and takes the maximum with zero. The three windows
  (two inputs, one output) move through their [800000, 128] arrays together, 8000 rows per grid point, and the 100
  points' blocks tile the output. So the output array ends at the rectified sum of the two input arrays, entry by
  entry — for any float values: no arithmetic law is used, only that the operation is entrywise.
-/
import proofs.«131487_j53807350284451_2_alg».proof.Proof.Gen.KernelIdeal.Frame
import Idealize.ShloMosaic.Lib.Pipeline.Value

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.Pipeline (Dat)

variable {F : FTy → Type} [FloatOps F]

/-- The rectified sum of two arrays of one shape: entry by entry, the maximum of the sum and zero. -/
def rectSum {s : Shape} (a b : s.Idx → Elt F .f32) : s.Idx → Elt F .f32 :=
  fun i => FloatOps.maximumf (FloatOps.addf (a i) (b i)) (Scalar.ofBits .f32 0x00000000#32)

theorem hz2 : (![0, 0] : Fin 2 → Nat) = fun _ => 0 := funext fun a => by fin_cases a <;> rfl

variable (V : (c : Dev nD) → (b : Ref sig .tc) → Buf (Elt F) ((c : Thread nD τ).loc b))

/-! ## Region 0: the edge messages of one layer, on the lane-dense layout -/

/-- The body's one store is the rectified sum of its two loaded blocks. -/
theorem pay0_eq (x0 x1 : Vec F S8000x128 .f32) : k0_pay1 x0 x1 = rectSum x0 x1 := by
  simp only [k0_pay1, shapeCast_self]
  rfl

/-- The three windows move together: at every grid point both inputs' block indices are the output's, and the output's
    lie in the array's 100 by 1 blocks (decided over the grid). -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 99
    ∧ win0_2.index t (1 : Fin 2) ≤ 0 :=
  (by decide +kernel : ∀ t : Fin grid0.N, _)

/-- Every block of rows is some grid point's. -/
theorem idx_onto0 : ∀ (q0 : Fin 100) (q1 : Fin 1), ∃ t : Fin cfg0.N, win0_2.index t = ![q0.val, q1.val] :=
  (by decide +kernel : ∀ (q0 : Fin 100) (q1 : Fin 1), ∃ t : Fin grid0.N, win0_2.index t = ![q0.val, q1.val])

/-- What grid point `t` writes back is block `t` of the rectified sum of the two whole input arrays. -/
theorem flushed0_eq (c : Dev nD) (t : Fin cfg0.N) :
    (dat0 V c).flushed 2 t = ((cfg0.win 2).blk t).view.read (Elt F) (rectSum (V c main_v11) (V c main_v12)) := by
  show (cfg0.win 2).cut (grid0.coords t) ((dat0 V c).after 2 t) = _
  rw [after0_2]
  unfold out0_2
  rw [View.canon_unit_zero hz2]
  simp only [View.ld_unit_zero (S := S8000x128) hz2]
  rw [pay0_eq]
  obtain ⟨e0, e1, e2, e3, e4, e5⟩ := idx_facts0 t
  funext j
  show rectSum (fun y => V c main_v11 (((cfg0.win 0).blk t).view.emb y)) (fun y => V c main_v12 (((cfg0.win 1).blk t).view.emb y)) j
    = rectSum (V c main_v11) (V c main_v12) (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 128 + 1 * (j 1).val = win0_2.index t (1 : Fin 2) * 128 + 1 * (j 1).val; omega
  show FloatOps.maximumf (FloatOps.addf (V c main_v11 (((cfg0.win 0).blk t).view.emb j)) (V c main_v12 (((cfg0.win 1).blk t).view.emb j))) _ = _
  rw [h0, h1]
  rfl

/-- An index of the output array lies in point `t`'s block iff each coordinate lies in the block's range. -/
theorem mem_blk0 (t : Fin cfg0.N) (i : S800000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v13).slice (win0_2.rect t)).set ↔ _
  rw [View.set_slice_whole, Rect.mem_set_unit]
  exact Iff.rfl

/-- Every index of the output array is in the block of the point that owns its 8000 rows. -/
theorem cover0 (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  obtain ⟨t, ht⟩ := idx_onto0 ⟨(i 0).val / 8000, by omega⟩ ⟨(i 1).val / 128, by omega⟩
  have q0 : win0_2.index t (0 : Fin 2) = (i 0).val / 8000 := congrFun ht 0
  have q1 : win0_2.index t (1 : Fin 2) = (i 1).val / 128 := congrFun ht 1
  refine ⟨t, flush0_2 t, ?_⟩
  rw [mem_blk0]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- The region leaves its output array at the rectified sum of its two input arrays as it found them. -/
theorem array0 (c : Dev nD) : (dat0 V c).arrAt 2 cfg0.N = rectSum (V c main_v11) (V c main_v12) :=
  (dat0 V c).arrAt_eq_of_cover 2 _ (fun t _ => flushed0_eq V c t) (cover0)

/-! ## Region 2: the edge messages of one layer, on the lane-dense layout -/

/-- The body's one store is the rectified sum of its two loaded blocks. -/
theorem pay2_eq (x0 x1 : Vec F S8000x128 .f32) : k2_pay1 x0 x1 = rectSum x0 x1 := by
  simp only [k2_pay1, shapeCast_self]
  rfl

/-- The three windows move together: at every grid point both inputs' block indices are the output's, and the output's
    lie in the array's 100 by 1 blocks (decided over the grid). -/
theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 99
    ∧ win2_2.index t (1 : Fin 2) ≤ 0 :=
  (by decide +kernel : ∀ t : Fin grid2.N, _)

/-- Every block of rows is some grid point's. -/
theorem idx_onto2 : ∀ (q0 : Fin 100) (q1 : Fin 1), ∃ t : Fin cfg2.N, win2_2.index t = ![q0.val, q1.val] :=
  (by decide +kernel : ∀ (q0 : Fin 100) (q1 : Fin 1), ∃ t : Fin grid2.N, win2_2.index t = ![q0.val, q1.val])

/-- What grid point `t` writes back is block `t` of the rectified sum of the two whole input arrays. -/
theorem flushed2_eq (c : Dev nD) (t : Fin cfg2.N) :
    (dat2 V c).flushed 2 t = ((cfg2.win 2).blk t).view.read (Elt F) (rectSum (V c main_v26) (V c main_v27)) := by
  show (cfg2.win 2).cut (grid2.coords t) ((dat2 V c).after 2 t) = _
  rw [after2_2]
  unfold out2_2
  rw [View.canon_unit_zero hz2]
  simp only [View.ld_unit_zero (S := S8000x128) hz2]
  rw [pay2_eq]
  obtain ⟨e0, e1, e2, e3, e4, e5⟩ := idx_facts2 t
  funext j
  show rectSum (fun y => V c main_v26 (((cfg2.win 0).blk t).view.emb y)) (fun y => V c main_v27 (((cfg2.win 1).blk t).view.emb y)) j
    = rectSum (V c main_v26) (V c main_v27) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  show FloatOps.maximumf (FloatOps.addf (V c main_v26 (((cfg2.win 0).blk t).view.emb j)) (V c main_v27 (((cfg2.win 1).blk t).view.emb j))) _ = _
  rw [h0, h1]
  rfl

/-- An index of the output array lies in point `t`'s block iff each coordinate lies in the block's range. -/
theorem mem_blk2 (t : Fin cfg2.N) (i : S800000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v28).slice (win2_2.rect t)).set ↔ _
  rw [View.set_slice_whole, Rect.mem_set_unit]
  exact Iff.rfl

/-- Every index of the output array is in the block of the point that owns its 8000 rows. -/
theorem cover2 (i : S800000x128.Idx) :
    ∃ t : Fin cfg2.N, (cfg2.win 2).flush t = true ∧ i ∈ ((cfg2.win 2).blk t).view.set := by
  have hi0 : (i 0).val < 800000 := (i 0).isLt
  have hi1 : (i 1).val < 128 := (i 1).isLt
  obtain ⟨t, ht⟩ := idx_onto2 ⟨(i 0).val / 8000, by omega⟩ ⟨(i 1).val / 128, by omega⟩
  have q0 : win2_2.index t (0 : Fin 2) = (i 0).val / 8000 := congrFun ht 0
  have q1 : win2_2.index t (1 : Fin 2) = (i 1).val / 128 := congrFun ht 1
  refine ⟨t, flush2_2 t, ?_⟩
  rw [mem_blk2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

/-- The region leaves its output array at the rectified sum of its two input arrays as it found them. -/
theorem array2 (c : Dev nD) : (dat2 V c).arrAt 2 cfg2.N = rectSum (V c main_v26) (V c main_v27) :=
  (dat2 V c).arrAt_eq_of_cover 2 _ (fun t _ => flushed2_eq V c t) (cover2)

end Cert.KernelIdeal.EdgeRegion

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«131487_j53807350284451_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«131487_j53807350284451_2_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.LibTwoLayer.lean ====
/-
  A two-layer perceptron on the rows of an array, on the extended reals.

  `hidden h wa ba` is the first layer: the rows of `h` times `wa`, plus the one row `ba`, floored at zero.
  `outFloor` and `outPlain` are the second layer on top of it, with and without the floor at zero. An entry of any of
  them depends on its own row of `h` only, so a block of rows of the result is the result of that block of rows.

  Two spellings denote these functions. Inside a kernel body a block meets the weights as a matrix-unit product
  (operands narrowed to bf16, which changes nothing on the extended reals) accumulated into the zero splat, plus the
  one-row bias broadcast over the rows, with a scalar splat as the floor. On the host the product is a `dot_general`,
  the bias a vector broadcast twice, the floor a broadcast scalar.
-/
import proofs.«131487_j53807350284451_2_alg».proof.Proof.LibPlainDot
import proofs.«131487_j53807350284451_2_alg».proof.Proof.LibRowBias
import proofs.«131487_j53807350284451_2_alg».proof.Proof.LibRowBiasHost
import proofs.«131487_j53807350284451_2_alg».proof.Proof.LibBodyBias
import Idealize.ShloMosaic.Lib.Pipeline.Value
import Idealize.ShloMosaic.Lib.ValueIdx

noncomputable section

namespace Cert.Mlp

open Idealize.ShloMosaic Idealize.ShloMosaic.ValueIdx Cert.LibPlainDot Cert.LibRowBias Cert.LibBodyBias

/-- Zero, as the word of the float literal `0.0` reads. -/
abbrev zero : EReal := Ideal.ofBits .f32 0x00000000#32

/-- The entrywise sum of two arrays of one shape. -/
def rowsSum {s : Shape} (a b : s.Idx → EReal) : s.Idx → EReal := fun i => a i + b i

/-- The first layer: rows times weights, plus the bias row, floored at zero. -/
def hidden {M K N : ℕ} (h : (⟨2, ![M, K]⟩ : Shape).Idx → EReal) (wa : (⟨2, ![K, N]⟩ : Shape).Idx → EReal)
    (ba : (⟨2, ![1, N]⟩ : Shape).Idx → EReal) : (⟨2, ![M, N]⟩ : Shape).Idx → EReal :=
  rowBiasFloor zero (rowsTimes h wa) ba

/-- Both layers, the second floored at zero too. -/
def outFloor {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBiasFloor zero (rowsTimes (hidden h wa ba) wb) bb

/-- Both layers, the second without a floor. -/
def outPlain {M K N P : ℕ} (h : (⟨2, ![M, K]⟩ : Shape).Idx → EReal) (wa : (⟨2, ![K, N]⟩ : Shape).Idx → EReal)
    (ba : (⟨2, ![1, N]⟩ : Shape).Idx → EReal) (wb : (⟨2, ![N, P]⟩ : Shape).Idx → EReal)
    (bb : (⟨2, ![1, P]⟩ : Shape).Idx → EReal) : (⟨2, ![M, P]⟩ : Shape).Idx → EReal :=
  rowBias (rowsTimes (hidden h wa ba) wb) bb

/-! ## A block of rows -/

/-- Rows `o, …, o + R - 1` of the first layer are the first layer of those rows. -/
theorem hidden_rows {M R K N : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (hh : ∀ (y : Fin R) (k : Fin K) (hlt : o + y.val < M), hb (ix2 y k) = h (ix2 (⟨o + y.val, hlt⟩ : Fin M) k))
    (y : (⟨2, ![R, N]⟩ : Shape).Idx) (i : (⟨2, ![M, N]⟩ : Shape).Idx) (h0 : (i 0).val = o + (y 0).val) (h1 : (i 1).val = (y 1).val) :
    hidden hb wa ba y = hidden h wa ba i :=
  rowBiasFloor_rows zero o (rowsTimes h wa) (rowsTimes hb wa) ba
    (fun p q hlt => rowsTimes_rows o h hb wa hh (ix2 p q) (ix2 (⟨o + p.val, hlt⟩ : Fin M) q) rfl rfl) y i h0 h1

/-- The same for both layers with the floor. -/
theorem outFloor_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outFloor hb wa ba wb bb y = outFloor h wa ba wb bb i :=
  rowBiasFloor_rows zero o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-- The same for both layers without the second floor. -/
theorem outPlain_rows {M R K N P : ℕ} (o : ℕ) (h : (⟨2, ![M, K]⟩ : Shape).Idx → EReal) (hb : (⟨2, ![R, K]⟩ : Shape).Idx → EReal)
    (wa : (⟨2, ![K, N]⟩ : Shape).Idx → EReal) (ba : (⟨2, ![1, N]⟩ : Shape).Idx → EReal)
    (wb : (⟨2, ![N, P]⟩ : Shape).Idx → EReal) (bb : (⟨2, ![1, P]⟩ : Shape).Idx → EReal)
    (hh : ∀ (y : Fin R) (k : Fin K) (hlt : o + y.val < M), hb (ix2 y k) = h (ix2 (⟨o + y.val, hlt⟩ : Fin M) k))
    (y : (⟨2, ![R, P]⟩ : Shape).Idx) (i : (⟨2, ![M, P]⟩ : Shape).Idx) (h0 : (i 0).val = o + (y 0).val) (h1 : (i 1).val = (y 1).val) :
    outPlain hb wa ba wb bb y = outPlain h wa ba wb bb i :=
  rowBias_rows o (rowsTimes (hidden h wa ba) wb) (rowsTimes (hidden hb wa ba) wb) bb
    (fun p q hlt => rowsTimes_rows o (hidden h wa ba) (hidden hb wa ba) wb
      (fun y' k hlt' => hidden_rows o h hb wa ba hh (ix2 y' k) (ix2 (⟨o + y'.val, hlt'⟩ : Fin M) k) rfl rfl)
      (ix2 p q) (ix2 (⟨o + p.val, hlt⟩ : Fin M) q) rfl rfl) y i h0 h1

/-! ## The kernel bodies' spelling of one layer -/

/-- A block times the weights on the matrix unit (both narrowed to bf16: the identity here), plus the bias row broadcast
    over the rows, floored at a zero splat: one floored layer. -/
theorem body_layer_floor {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    maximumf (addf (matmul d none (truncf .bf16 a hlt) (truncf .bf16 w hlt) (constant ⟨2, ![R, N]⟩ .f32 0x00000000#32))
        (broadcastTo ⟨2, ![R, N]⟩ b hbc)) (broadcast ⟨2, ![R, N]⟩ (Scalar.ofBits (F := Ideal) .f32 0x00000000#32))
      = rowBiasFloor zero (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q)) zero = _
  rw [broadcastRow_apply, matmul_zero_plain]
  rfl

/-- The same without the floor. -/
theorem body_layer_plain {R K N : ℕ} (a : FVec Ideal ⟨2, ![R, K]⟩ .f32) (w : FVec Ideal ⟨2, ![K, N]⟩ .f32)
    (b : FVec Ideal ⟨2, ![1, N]⟩ .f32) (d : DotDims ⟨2, ![R, K]⟩ ⟨2, ![K, N]⟩ ⟨2, ![R, N]⟩) (hd : d = DotDims.plain R K N)
    (hlt : FTy.bf16.bits < FTy.f32.bits) (hbc : (⟨2, ![1, N]⟩ : Shape).Broadcasts ⟨2, ![R, N]⟩) :
    addf (matmul d none (truncf .bf16 a hlt) (truncf .bf16 w hlt) (constant ⟨2, ![R, N]⟩ .f32 0x00000000#32))
        (broadcastTo ⟨2, ![R, N]⟩ b hbc)
      = rowBias (rowsTimes a w) b := by
  subst hd
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show FloatOps.matmul (DotDims.plain R K N) none (truncf .bf16 a hlt) (truncf .bf16 w hlt)
      (constant ⟨2, ![R, N]⟩ .f32 0x00000000#32) (ix2 p q) + broadcastTo ⟨2, ![R, N]⟩ b hbc (ix2 p q) = _
  rw [broadcastRow_apply, matmul_zero_plain]
  rfl

/-! ## The host's spelling of one layer -/

/-- A `dot_general`, plus a vector broadcast to a row and then over the rows, floored at a broadcast zero: one floored
    layer, its bias row the vector reshaped to one row. -/
theorem host_layer_floor {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf (Host.dotGeneral d none a w) (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 0x00000000#32))
      = rowBiasFloor zero (rowsTimes a w) (shapeCast ⟨2, ![1, N]⟩ x hc) := by
  subst hd
  rw [max_addf_bcastRow 0x00000000#32 _ x h0 h1 h2 hc]
  show rowBiasFloor zero (FloatOps.dotGeneral (DotDims.plain M K N) none .single a w) _ = _
  rw [dotGeneral_plain]

/-- The same without the floor. -/
theorem host_layer_plain {M K N : ℕ} (a : FVec Ideal ⟨2, ![M, K]⟩ .f32) (w : FVec Ideal ⟨2, ![K, N]⟩ .f32)
    (x : FVec Ideal ⟨1, ![N]⟩ .f32) (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a w) (broadcastInDim ⟨2, ![M, N]⟩ ![0, 1] h2 (broadcastInDim ⟨2, ![1, N]⟩ ![1] h1 x))
      = rowBias (rowsTimes a w) (shapeCast ⟨2, ![1, N]⟩ x hc) := by
  subst hd
  rw [addf_bcastRow _ x h1 h2 hc]
  show rowBias (FloatOps.dotGeneral (DotDims.plain M K N) none .single a w) _ = _
  rw [dotGeneral_plain]

end Cert.Mlp

end
-- ==== Proof.MlpRegion.lean ====
/-
  The two node-update regions, each as one function of its input arrays, on the extended reals.

  A region's body takes a block of 5000 rows of the node features and of the aggregated messages, adds them, and runs the
  two-layer perceptron on the sum with the whole weight matrices and bias vectors. The node windows and the output window
  move through their arrays together, 5000 rows per grid point; the weights and biases are the whole arrays at every
  point; the 20 points' blocks tile the output. A row of the perceptron depends on the same row of its input only, so
  the output array ends at the perceptron of the whole input arrays.
-/
import proofs.«131487_j53807350284451_2_alg».proof.Proof.Gen.KernelIdeal.Frame
import proofs.«131487_j53807350284451_2_alg».proof.Proof.LibTwoLayer
import Idealize.ShloMosaic.Lib.Pipeline.Value

set_option maxRecDepth 16384

noncomputable section

namespace Cert.KernelIdeal.MlpRegion

open Cert.KernelIdeal Cert.KernelIdeal.Gen Idealize.ShloMosaic Idealize.ShloMosaic.TcCoe Idealize.SL.Sem
open Idealize.ShloMosaic.Pipeline (Dat)
open Idealize.ShloMosaic.ValueIdx Cert.LibPlainDot Cert.LibRowBias Cert.Mlp

theorem hz2 : (![0, 0] : Fin 2 → Nat) = fun _ => 0 := funext fun a => by fin_cases a <;> rfl
theorem hz1 : (![0] : Fin 1 → Nat) = fun _ => 0 := funext fun a => by fin_cases a; rfl

/-! ## Region 1 -/

/-- The body's one store, as the perceptron of its loaded blocks. -/
theorem body1 (x0 x1 : Vec Ideal S5000x16 .f32) (x2 : Vec Ideal S16x16 .f32) (x3 : Vec Ideal S16 .f32)
    (x4 : Vec Ideal S16x16 .f32) (x5 : Vec Ideal S16 .f32) :
    k1_pay1 (F := Ideal) x0 x1 x2 x3 x4 x5
      = outFloor (M := 5000) (K := 16) (N := 16) (P := 16) (rowsSum x0 x1) x2 (shapeCast S1x16 x3 shapeCasts_S16_S1x16) x4 (shapeCast S1x16 x5 shapeCasts_S16_S1x16) := by
  unfold outFloor Cert.Mlp.hidden
  rw [← body_layer_floor (R := 5000) (K := 16) (N := 16) (rowsSum x0 x1) x2 (shapeCast S1x16 x3 shapeCasts_S16_S1x16) dot_S5000x16_S16x16_S5000x16_1_0_0_1_n_n rfl bitsLt_bf16_f32 broadcasts_S1x16_S5000x16]
  rw [← body_layer_floor (R := 5000) (K := 16) (N := 16) _ x4 (shapeCast S1x16 x5 shapeCasts_S16_S1x16) dot_S5000x16_S16x16_S5000x16_1_0_0_1_n_n rfl bitsLt_bf16_f32 broadcasts_S1x16_S5000x16]
  simp only [k1_pay1, shapeCast_self]
  rfl

/-- A block of 5000 rows: if the loaded blocks are rows `o, …, o + 4999` of the node arrays and the whole weight and
    bias arrays, the body's store at an entry is the whole-array perceptron at that entry's row `o` further down. -/
theorem block1 (X A : S100000x16.Idx → EReal) (WA : S16x16.Idx → EReal) (BA : S16.Idx → EReal)
    (WB : S16x16.Idx → EReal) (BB : S16.Idx → EReal)
    (x0 x1 : Vec Ideal S5000x16 .f32) (x2 : Vec Ideal S16x16 .f32) (x3 : Vec Ideal S16 .f32)
    (x4 : Vec Ideal S16x16 .f32) (x5 : Vec Ideal S16 .f32) (o : ℕ)
    (h0 : ∀ (y : Fin 5000) (k : Fin 16) (hlt : o + y.val < 100000), x0 (ix2 y k) = X (ix2 (⟨o + y.val, hlt⟩ : Fin 100000) k))
    (h1 : ∀ (y : Fin 5000) (k : Fin 16) (hlt : o + y.val < 100000), x1 (ix2 y k) = A (ix2 (⟨o + y.val, hlt⟩ : Fin 100000) k))
    (h2 : x2 = WA) (h3 : x3 = BA) (h4 : x4 = WB) (h5 : x5 = BB)
    (j : S5000x16.Idx) (i : S100000x16.Idx) (e0 : (i 0).val = o + (j 0).val) (e1 : (i 1).val = (j 1).val) :
    k1_pay1 (F := Ideal) x0 x1 x2 x3 x4 x5 j
      = outFloor (M := 100000) (K := 16) (N := 16) (P := 16) (rowsSum X A) WA (shapeCast S1x16 BA shapeCasts_S16_S1x16) WB (shapeCast S1x16 BB shapeCasts_S16_S1x16) i := by
  subst h2 h3 h4 h5
  rw [body1]
  exact outFloor_rows o (rowsSum X A) (rowsSum x0 x1) x2 _ x4 _
    (fun y k hlt => by show x0 _ + x1 _ = X _ + A _; rw [h0 y k hlt, h1 y k hlt]) j i e0 e1

/-- The printed index maps, decided over the 20 grid points: the two node windows move with the output, 5000 rows a
    point; the weights and biases stay at block 0. -/
theorem idx_facts1 : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (1 : Fin 2) = 0
    ∧ win1_6.index t (0 : Fin 2) ≤ 19 :=
  (by decide +kernel : ∀ t : Fin grid1.N, _)

/-- Every block of rows is some grid point's. -/
theorem idx_onto1 : ∀ (q0 : Fin 20), ∃ t : Fin cfg1.N, win1_6.index t = ![q0.val, 0] :=
  (by decide +kernel : ∀ (q0 : Fin 20), ∃ t : Fin grid1.N, win1_6.index t = ![q0.val, 0])

variable (V : (c : Dev nD) → (b : Ref sig .tc) → Buf (Elt Ideal) ((c : Thread nD τ).loc b))

/-- The region's output array as one function of its input arrays as the region finds them. -/
def whole1 (c : Dev nD) : S100000x16.Idx → EReal :=
  outFloor (M := 100000) (K := 16) (N := 16) (P := 16) (rowsSum (V c main_arg0) (V c main_v17)) (V c main_arg4)
    (shapeCast S1x16 (V c main_arg5) shapeCasts_S16_S1x16) (V c main_arg6) (shapeCast S1x16 (V c main_arg7) shapeCasts_S16_S1x16)

/-- What grid point `t` writes back is block `t` of that function. -/
theorem flushed1_eq (c : Dev nD) (t : Fin cfg1.N) :
    (dat1 V c).flushed 6 t = ((cfg1.win 6).blk t).view.read (Elt Ideal) (whole1 V c) := by
  show (cfg1.win 6).cut (grid1.coords t) ((dat1 V c).after 6 t) = _
  rw [after1_6]
  unfold out1_6
  rw [View.canon_unit_zero hz2]
  simp only [View.ld_unit_zero (S := S5000x16) hz2, View.ld_unit_zero (S := S16x16) hz2, View.ld_unit_zero (S := S16x16) hz2,
    View.ld_unit_zero (S := S16) hz1]
  obtain ⟨e0, e1, e2, e3, e4, e5, e6, e7, e8, e9, e10, e11⟩ := idx_facts1 t
  funext j
  show k1_pay1 (F := Ideal) (iblk1 V c 0 t) (iblk1 V c 1 t) (iblk1 V c 2 t) (iblk1 V c 3 t) (iblk1 V c 4 t) (iblk1 V c 5 t) j
    = whole1 V c (((cfg1.win 6).blk t).view.emb j)
  refine block1 (V c main_arg0) (V c main_v17) (V c main_arg4) (V c main_arg5) (V c main_arg6) (V c main_arg7)
    (iblk1 V c 0 t) (iblk1 V c 1 t) (iblk1 V c 2 t) (iblk1 V c 3 t) (iblk1 V c 4 t) (iblk1 V c 5 t)
    (win1_6.index t (0 : Fin 2) * 5000) ?_ ?_ ?_ ?_ ?_ ?_ j (((cfg1.win 6).blk t).view.emb j) ?_ ?_
  · intro y k hlt
    show V c main_arg0 (((cfg1.win 0).blk t).view.emb (ix2 y k)) = V c main_arg0 _
    refine congrArg (V c main_arg0) (funext fun a => Fin.ext ?_)
    match a with
    | ⟨0, _⟩ => show win1_0.index t (0 : Fin 2) * 5000 + 1 * y.val = win1_6.index t (0 : Fin 2) * 5000 + y.val; omega
    | ⟨1, _⟩ => show win1_0.index t (1 : Fin 2) * 16 + 1 * k.val = k.val; omega
  · intro y k hlt
    show V c main_v17 (((cfg1.win 1).blk t).view.emb (ix2 y k)) = V c main_v17 _
    refine congrArg (V c main_v17) (funext fun a => Fin.ext ?_)
    match a with
    | ⟨0, _⟩ => show win1_1.index t (0 : Fin 2) * 5000 + 1 * y.val = win1_6.index t (0 : Fin 2) * 5000 + y.val; omega
    | ⟨1, _⟩ => show win1_1.index t (1 : Fin 2) * 16 + 1 * k.val = k.val; omega
  · funext y
    show V c main_arg4 (((cfg1.win 2).blk t).view.emb y) = V c main_arg4 y
    refine congrArg (V c main_arg4) (funext fun a => Fin.ext ?_)
    match a with
    | ⟨0, _⟩ => show win1_2.index t (0 : Fin 2) * 16 + 1 * (y 0).val = (y 0).val; omega
    | ⟨1, _⟩ => show win1_2.index t (1 : Fin 2) * 16 + 1 * (y 1).val = (y 1).val; omega
  · funext y
    show V c main_arg5 (((cfg1.win 3).blk t).view.emb y) = V c main_arg5 y
    refine congrArg (V c main_arg5) (funext fun a => Fin.ext ?_)
    match a with
    | ⟨0, _⟩ => show win1_3.index t (0 : Fin 1) * 16 + 1 * (y 0).val = (y 0).val; omega
  · funext y
    show V c main_arg6 (((cfg1.win 4).blk t).view.emb y) = V c main_arg6 y
    refine congrArg (V c main_arg6) (funext fun a => Fin.ext ?_)
    match a with
    | ⟨0, _⟩ => show win1_4.index t (0 : Fin 2) * 16 + 1 * (y 0).val = (y 0).val; omega
    | ⟨1, _⟩ => show win1_4.index t (1 : Fin 2) * 16 + 1 * (y 1).val = (y 1).val; omega
  · funext y
    show V c main_arg7 (((cfg1.win 5).blk t).view.emb y) = V c main_arg7 y
    refine congrArg (V c main_arg7) (funext fun a => Fin.ext ?_)
    match a with
    | ⟨0, _⟩ => show win1_5.index t (0 : Fin 1) * 16 + 1 * (y 0).val = (y 0).val; omega
  · show win1_6.index t (0 : Fin 2) * 5000 + 1 * (j 0).val = win1_6.index t (0 : Fin 2) * 5000 + (j 0).val; omega
  · show win1_6.index t (1 : Fin 2) * 16 + 1 * (j 1).val = (j 1).val; omega

/-- An index of the output array lies in point `t`'s block iff each coordinate lies in the block's range. -/
theorem mem_blk1 (t : Fin cfg1.N) (i : S100000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v18).slice (win1_6.rect t)).set ↔ _
  rw [View.set_slice_whole, Rect.mem_set_unit]
  exact Iff.rfl

/-- Every index of the output array is in the block of the point that owns its 5000 rows. -/
theorem cover1 (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 16 ≤ (i 1).val ∧ (i 1).val < win1_6.index t (1 : Fin 2) * 16 + 16; omega

/-- The region leaves its output array at the perceptron of its input arrays as it found them. -/
theorem array1 (c : Dev nD) : (dat1 V c).arrAt 6 cfg1.N = whole1 V c :=
  (dat1 V c).arrAt_eq_of_cover 6 _ (fun t _ => flushed1_eq V c t) (cover1)

/-! ## Region 3 -/

/-- The body's one store, as the perceptron of its loaded blocks. -/
theorem body3 (x0 x1 : Vec Ideal S5000x16 .f32) (x2 : Vec Ideal S16x6 .f32) (x3 : Vec Ideal S6 .f32)
    (x4 : Vec Ideal S6x6 .f32) (x5 : Vec Ideal S6 .f32) :
    k3_pay1 (F := Ideal) x0 x1 x2 x3 x4 x5
      = outPlain (M := 5000) (K := 16) (N := 6) (P := 6) (rowsSum x0 x1) x2 (shapeCast S1x6 x3 shapeCasts_S6_S1x6) x4 (shapeCast S1x6 x5 shapeCasts_S6_S1x6) := by
  unfold outPlain Cert.Mlp.hidden
  rw [← body_layer_floor (R := 5000) (K := 16) (N := 6) (rowsSum x0 x1) x2 (shapeCast S1x6 x3 shapeCasts_S6_S1x6) dot_S5000x16_S16x6_S5000x6_1_0_0_1_n_n rfl bitsLt_bf16_f32 broadcasts_S1x6_S5000x6]
  rw [← body_layer_plain (R := 5000) (K := 6) (N := 6) _ x4 (shapeCast S1x6 x5 shapeCasts_S6_S1x6) dot_S5000x6_S6x6_S5000x6_1_0_0_1_n_n rfl bitsLt_bf16_f32 broadcasts_S1x6_S5000x6]
  simp only [k3_pay1, shapeCast_self]
  rfl

/-- A block of 5000 rows: if the loaded blocks are rows `o, …, o + 4999` of the node arrays and the whole weight and
    bias arrays, the body's store at an entry is the whole-array perceptron at that entry's row `o` further down. -/
theorem block3 (X A : S100000x16.Idx → EReal) (WA : S16x6.Idx → EReal) (BA : S6.Idx → EReal)
    (WB : S6x6.Idx → EReal) (BB : S6.Idx → EReal)
    (x0 x1 : Vec Ideal S5000x16 .f32) (x2 : Vec Ideal S16x6 .f32) (x3 : Vec Ideal S6 .f32)
    (x4 : Vec Ideal S6x6 .f32) (x5 : Vec Ideal S6 .f32) (o : ℕ)
    (h0 : ∀ (y : Fin 5000) (k : Fin 16) (hlt : o + y.val < 100000), x0 (ix2 y k) = X (ix2 (⟨o + y.val, hlt⟩ : Fin 100000) k))
    (h1 : ∀ (y : Fin 5000) (k : Fin 16) (hlt : o + y.val < 100000), x1 (ix2 y k) = A (ix2 (⟨o + y.val, hlt⟩ : Fin 100000) k))
    (h2 : x2 = WA) (h3 : x3 = BA) (h4 : x4 = WB) (h5 : x5 = BB)
    (j : S5000x6.Idx) (i : S100000x6.Idx) (e0 : (i 0).val = o + (j 0).val) (e1 : (i 1).val = (j 1).val) :
    k3_pay1 (F := Ideal) x0 x1 x2 x3 x4 x5 j
      = outPlain (M := 100000) (K := 16) (N := 6) (P := 6) (rowsSum X A) WA (shapeCast S1x6 BA shapeCasts_S6_S1x6) WB (shapeCast S1x6 BB shapeCasts_S6_S1x6) i := by
  subst h2 h3 h4 h5
  rw [body3]
  exact outPlain_rows o (rowsSum X A) (rowsSum x0 x1) x2 _ x4 _
    (fun y k hlt => by show x0 _ + x1 _ = X _ + A _; rw [h0 y k hlt, h1 y k hlt]) j i e0 e1

/-- The printed index maps, decided over the 20 grid points: the two node windows move with the output, 5000 rows a
    point; the weights and biases stay at block 0. -/
theorem idx_facts3 : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (1 : Fin 2) = 0
    ∧ win3_6.index t (0 : Fin 2) ≤ 19 :=
  (by decide +kernel : ∀ t : Fin grid3.N, _)

/-- Every block of rows is some grid point's. -/
theorem idx_onto3 : ∀ (q0 : Fin 20), ∃ t : Fin cfg3.N, win3_6.index t = ![q0.val, 0] :=
  (by decide +kernel : ∀ (q0 : Fin 20), ∃ t : Fin grid3.N, win3_6.index t = ![q0.val, 0])

/-- The region's output array as one function of its input arrays as the region finds them. -/
def whole3 (c : Dev nD) : S100000x6.Idx → EReal :=
  outPlain (M := 100000) (K := 16) (N := 6) (P := 6) (rowsSum (V c main_v18) (V c main_v32)) (V c main_arg8)
    (shapeCast S1x6 (V c main_arg9) shapeCasts_S6_S1x6) (V c main_arg10) (shapeCast S1x6 (V c main_arg11) shapeCasts_S6_S1x6)

/-- What grid point `t` writes back is block `t` of that function. -/
theorem flushed3_eq (c : Dev nD) (t : Fin cfg3.N) :
    (dat3 V c).flushed 6 t = ((cfg3.win 6).blk t).view.read (Elt Ideal) (whole3 V c) := by
  show (cfg3.win 6).cut (grid3.coords t) ((dat3 V c).after 6 t) = _
  rw [after3_6]
  unfold out3_6
  rw [View.canon_unit_zero hz2]
  simp only [View.ld_unit_zero (S := S5000x16) hz2, View.ld_unit_zero (S := S16x6) hz2, View.ld_unit_zero (S := S6x6) hz2,
    View.ld_unit_zero (S := S6) hz1]
  obtain ⟨e0, e1, e2, e3, e4, e5, e6, e7, e8, e9, e10, e11⟩ := idx_facts3 t
  funext j
  show k3_pay1 (F := Ideal) (iblk3 V c 0 t) (iblk3 V c 1 t) (iblk3 V c 2 t) (iblk3 V c 3 t) (iblk3 V c 4 t) (iblk3 V c 5 t) j
    = whole3 V c (((cfg3.win 6).blk t).view.emb j)
  refine block3 (V c main_v18) (V c main_v32) (V c main_arg8) (V c main_arg9) (V c main_arg10) (V c main_arg11)
    (iblk3 V c 0 t) (iblk3 V c 1 t) (iblk3 V c 2 t) (iblk3 V c 3 t) (iblk3 V c 4 t) (iblk3 V c 5 t)
    (win3_6.index t (0 : Fin 2) * 5000) ?_ ?_ ?_ ?_ ?_ ?_ j (((cfg3.win 6).blk t).view.emb j) ?_ ?_
  · intro y k hlt
    show V c main_v18 (((cfg3.win 0).blk t).view.emb (ix2 y k)) = V c main_v18 _
    refine congrArg (V c main_v18) (funext fun a => Fin.ext ?_)
    match a with
    | ⟨0, _⟩ => show win3_0.index t (0 : Fin 2) * 5000 + 1 * y.val = win3_6.index t (0 : Fin 2) * 5000 + y.val; omega
    | ⟨1, _⟩ => show win3_0.index t (1 : Fin 2) * 16 + 1 * k.val = k.val; omega
  · intro y k hlt
    show V c main_v32 (((cfg3.win 1).blk t).view.emb (ix2 y k)) = V c main_v32 _
    refine congrArg (V c main_v32) (funext fun a => Fin.ext ?_)
    match a with
    | ⟨0, _⟩ => show win3_1.index t (0 : Fin 2) * 5000 + 1 * y.val = win3_6.index t (0 : Fin 2) * 5000 + y.val; omega
    | ⟨1, _⟩ => show win3_1.index t (1 : Fin 2) * 16 + 1 * k.val = k.val; omega
  · funext y
    show V c main_arg8 (((cfg3.win 2).blk t).view.emb y) = V c main_arg8 y
    refine congrArg (V c main_arg8) (funext fun a => Fin.ext ?_)
    match a with
    | ⟨0, _⟩ => show win3_2.index t (0 : Fin 2) * 16 + 1 * (y 0).val = (y 0).val; omega
    | ⟨1, _⟩ => show win3_2.index t (1 : Fin 2) * 6 + 1 * (y 1).val = (y 1).val; omega
  · funext y
    show V c main_arg9 (((cfg3.win 3).blk t).view.emb y) = V c main_arg9 y
    refine congrArg (V c main_arg9) (funext fun a => Fin.ext ?_)
    match a with
    | ⟨0, _⟩ => show win3_3.index t (0 : Fin 1) * 6 + 1 * (y 0).val = (y 0).val; omega
  · funext y
    show V c main_arg10 (((cfg3.win 4).blk t).view.emb y) = V c main_arg10 y
    refine congrArg (V c main_arg10) (funext fun a => Fin.ext ?_)
    match a with
    | ⟨0, _⟩ => show win3_4.index t (0 : Fin 2) * 6 + 1 * (y 0).val = (y 0).val; omega
    | ⟨1, _⟩ => show win3_4.index t (1 : Fin 2) * 6 + 1 * (y 1).val = (y 1).val; omega
  · funext y
    show V c main_arg11 (((cfg3.win 5).blk t).view.emb y) = V c main_arg11 y
    refine congrArg (V c main_arg11) (funext fun a => Fin.ext ?_)
    match a with
    | ⟨0, _⟩ => show win3_5.index t (0 : Fin 1) * 6 + 1 * (y 0).val = (y 0).val; omega
  · show win3_6.index t (0 : Fin 2) * 5000 + 1 * (j 0).val = win3_6.index t (0 : Fin 2) * 5000 + (j 0).val; omega
  · show win3_6.index t (1 : Fin 2) * 6 + 1 * (j 1).val = (j 1).val; omega

/-- An index of the output array lies in point `t`'s block iff each coordinate lies in the block's range. -/
theorem mem_blk3 (t : Fin cfg3.N) (i : S100000x6.Idx) :
    i ∈ ((cfg3.win 6).blk t).view.set ↔ ∀ a : Fin 2, win3_6.index t a * S5000x6.size a ≤ (i a).val ∧ (i a).val < win3_6.index t a * S5000x6.size a + S5000x6.size a := by
  show i ∈ ((View.whole main_v33).slice (win3_6.rect t)).set ↔ _
  rw [View.set_slice_whole, Rect.mem_set_unit]
  exact Iff.rfl

/-- Every index of the output array is in the block of the point that owns its 5000 rows. -/
theorem cover3 (i : S100000x6.Idx) :
    ∃ t : Fin cfg3.N, (cfg3.win 6).flush t = true ∧ i ∈ ((cfg3.win 6).blk t).view.set := by
  have hi0 : (i 0).val < 100000 := (i 0).isLt
  have hi1 : (i 1).val < 6 := (i 1).isLt
  obtain ⟨t, ht⟩ := idx_onto3 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 6 ≤ (i 1).val ∧ (i 1).val < win3_6.index t (1 : Fin 2) * 6 + 6; omega

/-- The region leaves its output array at the perceptron of its input arrays as it found them. -/
theorem array3 (c : Dev nD) : (dat3 V c).arrAt 6 cfg3.N = whole3 V c :=
  (dat3 V c).arrAt_eq_of_cover 6 _ (fun t _ => flushed3_eq V c t) (cover3)

end Cert.KernelIdeal.MlpRegion

end
-- ==== Proof.KernelStages.lean ====
/-
  The idealized kernel's result, stage by stage.

  Between the four pipelined regions the kernel's @main runs the same host operations as the reference: the source and
  target node of every edge, the gather of the source rows, the sum per target node, the per-graph mean and the
  log-softmax. What differs is the regions: the messages are formed on a lane-dense re-layout of the edge arrays
  (reshape [6400000, 16] to [800000, 128], rectified sum, reshape back), and each perceptron runs block by block.
  This module names the stages and their composition over the twelve argument arrays.
-/
import proofs.«131487_j53807350284451_2_alg».proof.Proof.Gen.KernelIdeal
import proofs.«131487_j53807350284451_2_alg».proof.Proof.LibTwoLayer
import Idealize.ShloMosaic.PureOps.Ideal

set_option maxRecDepth 65536

noncomputable section

namespace Cert.KernelIdeal.Stages

open Cert.KernelIdeal Cert.KernelIdeal.Gen Idealize.ShloMosaic Cert.Mlp

/-- Float and integer arrays of a shape, at the ideal values. -/
abbrev FV (s : Shape) : Type := FVec Ideal s .f32
abbrev IV (s : Shape) : Type := IVec s 32

/-- Row 0 of the edge list: every edge's source node. -/
def srcIdx (ei : IV S2x6400000) : IV S6400000 :=
  shapeCast _ (extractStridedSlice S1x6400000 ![0, 0] ei slices_S2x6400000_S1x6400000_0_0) shapeCasts_S1x6400000_S6400000

/-- Row 1 of the edge list: every edge's target node. -/
def dstIdx (ei : IV S2x6400000) : IV S6400000 :=
  shapeCast _ (extractStridedSlice S1x6400000 ![1, 0] ei slices_S2x6400000_S1x6400000_1_0) shapeCasts_S1x6400000_S6400000

/-- The source nodes as a column of gather indices, a negative one counted from the end. -/
def srcCol (s : IV S6400000) : IV S6400000x1 :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 100000#32))) s)

/-- Every edge's source row of the node features. -/
def gathered (h : FV S100000x16) (s : IV S6400000) : FV S6400000x16 :=
  Host.gather gather_S100000x16_S6400000x1_S6400000x16_1_0_n_n_0_1_116 h (srcCol s)

/-- The messages summed per target node. -/
def aggrOf (d : IV S6400000) (msgs : FV S6400000x16) : FV S100000x16 :=
  Host.scatterAdd scatter_S100000x16_S6400000x1_S6400000x16_1_0_0_1
    (broadcastInDim S100000x16 ![] bcast_S_S100000x16 (constant S_ .f32 0x00000000#32))
    (broadcastInDim S6400000x1 ![0] bcast_S6400000_S6400000x1_0 d) msgs

/-- The per-graph mean of the node rows: the sum per graph over the larger of the graph's node count and one. -/
def pooled (h2 : FV S100000x6) (b : IV S100000) : FV S1000x6 :=
  Host.divf (Host.scatterAdd scatter_S1000x6_S100000x1_S100000x6_1_0_0_1
      (broadcastInDim S1000x6 ![] bcast_S_S1000x6 (constant S_ .f32 0x00000000#32))
      (broadcastInDim S100000x1 ![0] bcast_S100000_S100000x1_0 b) h2)
    (broadcastInDim S1000x6 ![0, 1] bcast_S1000x1_S1000x6_0_1 (broadcastInDim S1000x1 ![0] bcast_S1000_S1000x1_0
      (maximumf (Host.scatterAdd scatter_S1000_S100000x1_S100000_n_0_0_1
          (broadcastInDim S1000 ![] bcast_S_S1000 (constant S_ .f32 0x00000000#32))
          (broadcastInDim S100000x1 ![0] bcast_S100000_S100000x1_0 b)
          (broadcastInDim S100000 ![] bcast_S_S100000 (constant S_ .f32 0x3F800000#32)))
        (broadcastInDim S1000 ![] bcast_S_S1000 (constant S_ .f32 0x3F800000#32)))))

/-- A row minus its maximum. -/
def shifted (p : FV S1000x6) : FV S1000x6 :=
  subf p (broadcastInDim S1000x6 ![0, 1] bcast_S1000x1_S1000x6_0_1 (broadcastInDim S1000x1 ![0] bcast_S1000_S1000x1_0
    (maximumf (broadcastInDim S1000 ![] bcast_S_S1000 (constant S_ .f32 0xFF800000#32))
      (Host.reduce FloatOps.maximumf p (constant S_ .f32 0xFF800000#32) reducesTo_S1000x6_S1000_d1 h_S_))))

/-- The row-wise log-softmax. -/
def logSoftmax (p : FV S1000x6) : FV S1000x6 :=
  subf (shifted p) (broadcastInDim S1000x6 ![0, 1] bcast_S1000x1_S1000x6_0_1
    (Host.log (broadcastInDim S1000x1 ![0] bcast_S1000_S1000x1_0
      (Host.reduceAdd (Host.exp (shifted p)) (constant S_ .f32 0x00000000#32) reducesTo_S1000x6_S1000_d1 h_S_))))

/-- An edge array on the lane-dense layout, and back. -/
def laneDense (u : FV S6400000x16) : FV S800000x128 := shapeCast _ u shapeCasts_S6400000x16_S800000x128
def rowsBack (u : FV S800000x128) : FV S6400000x16 := shapeCast _ u shapeCasts_S800000x128_S6400000x16

/-- The rectified sum of two arrays of one shape: entry by entry, the maximum of the sum and zero. -/
def rectified {s : Shape} (a b : s.Idx → EReal) : s.Idx → EReal := fun i => max (a i + b i) zero

/-- A layer's messages as the kernel forms them: on the lane-dense layout, then back. -/
def msgDense (g ea : FV S6400000x16) : FV S6400000x16 := rowsBack (rectified (laneDense g) (laneDense ea))

/-- A bias vector as one row. -/
def row16 (b : FV S16) : FV S1x16 := shapeCast S1x16 b shapeCasts_S16_S1x16
def row6 (b : FV S6) : FV S1x6 := shapeCast S1x6 b shapeCasts_S6_S1x6

/-- The first layer's node features. -/
def nodes1 (x : FV S100000x16) (ei : IV S2x6400000) (ea : FV S6400000x16) (wa : FV S16x16) (ba : FV S16) (wb : FV S16x16)
    (bb : FV S16) : FV S100000x16 :=
  outFloor (M := 100000) (K := 16) (N := 16) (P := 16)
    (rowsSum x (aggrOf (dstIdx ei) (msgDense (gathered x (srcIdx ei)) ea))) wa (row16 ba) wb (row16 bb)

/-- The second layer's node features. -/
def nodes2 (h : FV S100000x16) (ei : IV S2x6400000) (ea : FV S6400000x16) (wa : FV S16x6) (ba : FV S6) (wb : FV S6x6)
    (bb : FV S6) : FV S100000x6 :=
  outPlain (M := 100000) (K := 16) (N := 6) (P := 6)
    (rowsSum h (aggrOf (dstIdx ei) (msgDense (gathered h (srcIdx ei)) ea))) wa (row6 ba) wb (row6 bb)

/-- The whole function. -/
def out (a0 : FV S100000x16) (a1 : IV S2x6400000) (a2 : FV S6400000x16) (a3 : IV S100000) (a4 : FV S16x16) (a5 : FV S16)
    (a6 : FV S16x16) (a7 : FV S16) (a8 : FV S16x6) (a9 : FV S6) (a10 : FV S6x6) (a11 : FV S6) : FV S1000x6 :=
  logSoftmax (pooled (nodes2 (nodes1 a0 a1 a2 a4 a5 a6 a7) a1 a2 a8 a9 a10 a11) a3)

end Cert.KernelIdeal.Stages

end
-- ==== Proof.FoldValue.lean ====
/-
  The kernel's result, read off the fold of buffer contents through @main.

  The contents at the return are the last host stretch applied to what region 3 and the stretches before it left, and
  so on back to the launch memory. Walking that fold from the launch forward: the first stretch computes the edges'
  source and target nodes, gathers the source rows and re-lays the two edge arrays lane-dense; region 0 leaves their
  rectified sum; the next stretch lays it back and sums it per target node; region 1 leaves the first perceptron of
  the node features plus that sum; the same three steps again with the new node features; the last two stretches pool
  per graph and take the log-softmax. A buffer that a stretch or region does not write keeps its contents, which is how
  the arguments, the source and target nodes and the first layer's output reach the later steps.
-/
import proofs.«131487_j53807350284451_2_alg».proof.Proof.KernelRun
import proofs.«131487_j53807350284451_2_alg».proof.Proof.EdgeRegion
import proofs.«131487_j53807350284451_2_alg».proof.Proof.MlpRegion
import proofs.«131487_j53807350284451_2_alg».proof.Proof.KernelStages
import Idealize.ShloMosaic.Lib.StableHlo.Run

set_option maxRecDepth 16384

noncomputable section

namespace Cert.KernelIdeal.FoldValue

open Cert.KernelIdeal Cert.KernelIdeal.Gen Cert.KernelIdeal.Stages Idealize.ShloMosaic Idealize.ShloMosaic.TcCoe Idealize.SL.Sem
open Idealize.ShloMosaic.StableHlo Cert.Mlp

variable (m : (ℓ : Loc nD τ sig) → Buf (Elt Ideal) ℓ) (ρ : Dev nD → PrngReg) (c : Dev nD)

/-- A host stretch leaves a buffer it does not write as it found it. -/
local macro "host_keeps" : tactic => `(tactic| (
  refine StableHlo.after_of_forall_not_mem _ _ (List.forall_iff_forall_mem.mp ?_)
  simp only [hostOps0, hostOps1, hostOps2, hostOps3, hostOps4, hostOps4_1, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The arguments, where a later step reads them -/

theorem w3_arg0 : W3 m ρ c (Proc.devRef .tc main_arg0) = m ((c.tc : Thread nD τ).loc main_arg0) :=
  (((by host_keeps : W3 m ρ c (Proc.devRef .tc main_arg0) = W2 m ρ c (Proc.devRef .tc main_arg0))).trans (((W2_of_ne m ρ c main_arg0 (by decide))).trans ((by host_keeps : W1 m ρ c (Proc.devRef .tc main_arg0) = W0 m ρ c (Proc.devRef .tc main_arg0))))).trans rfl
theorem w3_arg4 : W3 m ρ c (Proc.devRef .tc main_arg4) = m ((c.tc : Thread nD τ).loc main_arg4) :=
  (((by host_keeps : W3 m ρ c (Proc.devRef .tc main_arg4) = W2 m ρ c (Proc.devRef .tc main_arg4))).trans (((W2_of_ne m ρ c main_arg4 (by decide))).trans ((by host_keeps : W1 m ρ c (Proc.devRef .tc main_arg4) = W0 m ρ c (Proc.devRef .tc main_arg4))))).trans rfl
theorem w3_arg5 : W3 m ρ c (Proc.devRef .tc main_arg5) = m ((c.tc : Thread nD τ).loc main_arg5) :=
  (((by host_keeps : W3 m ρ c (Proc.devRef .tc main_arg5) = W2 m ρ c (Proc.devRef .tc main_arg5))).trans (((W2_of_ne m ρ c main_arg5 (by decide))).trans ((by host_keeps : W1 m ρ c (Proc.devRef .tc main_arg5) = W0 m ρ c (Proc.devRef .tc main_arg5))))).trans rfl
theorem w3_arg6 : W3 m ρ c (Proc.devRef .tc main_arg6) = m ((c.tc : Thread nD τ).loc main_arg6) :=
  (((by host_keeps : W3 m ρ c (Proc.devRef .tc main_arg6) = W2 m ρ c (Proc.devRef .tc main_arg6))).trans (((W2_of_ne m ρ c main_arg6 (by decide))).trans ((by host_keeps : W1 m ρ c (Proc.devRef .tc main_arg6) = W0 m ρ c (Proc.devRef .tc main_arg6))))).trans rfl
theorem w3_arg7 : W3 m ρ c (Proc.devRef .tc main_arg7) = m ((c.tc : Thread nD τ).loc main_arg7) :=
  (((by host_keeps : W3 m ρ c (Proc.devRef .tc main_arg7) = W2 m ρ c (Proc.devRef .tc main_arg7))).trans (((W2_of_ne m ρ c main_arg7 (by decide))).trans ((by host_keeps : W1 m ρ c (Proc.devRef .tc main_arg7) = W0 m ρ c (Proc.devRef .tc main_arg7))))).trans rfl
theorem w4_arg2 : W4 m ρ c (Proc.devRef .tc main_arg2) = m ((c.tc : Thread nD τ).loc main_arg2) :=
  (((W4_of_ne m ρ c main_arg2 (by decide))).trans (((by host_keeps : W3 m ρ c (Proc.devRef .tc main_arg2) = W2 m ρ c (Proc.devRef .tc main_arg2))).trans (((W2_of_ne m ρ c main_arg2 (by decide))).trans ((by host_keeps : W1 m ρ c (Proc.devRef .tc main_arg2) = W0 m ρ c (Proc.devRef .tc main_arg2)))))).trans rfl
theorem w7_arg8 : W7 m ρ c (Proc.devRef .tc main_arg8) = m ((c.tc : Thread nD τ).loc main_arg8) :=
  (((by host_keeps : W7 m ρ c (Proc.devRef .tc main_arg8) = W6 m ρ c (Proc.devRef .tc main_arg8))).trans (((W6_of_ne m ρ c main_arg8 (by decide))).trans (((by host_keeps : W5 m ρ c (Proc.devRef .tc main_arg8) = W4 m ρ c (Proc.devRef .tc main_arg8))).trans (((W4_of_ne m ρ c main_arg8 (by decide))).trans (((by host_keeps : W3 m ρ c (Proc.devRef .tc main_arg8) = W2 m ρ c (Proc.devRef .tc main_arg8))).trans (((W2_of_ne m ρ c main_arg8 (by decide))).trans ((by host_keeps : W1 m ρ c (Proc.devRef .tc main_arg8) = W0 m ρ c (Proc.devRef .tc main_arg8))))))))).trans rfl
theorem w7_arg9 : W7 m ρ c (Proc.devRef .tc main_arg9) = m ((c.tc : Thread nD τ).loc main_arg9) :=
  (((by host_keeps : W7 m ρ c (Proc.devRef .tc main_arg9) = W6 m ρ c (Proc.devRef .tc main_arg9))).trans (((W6_of_ne m ρ c main_arg9 (by decide))).trans (((by host_keeps : W5 m ρ c (Proc.devRef .tc main_arg9) = W4 m ρ c (Proc.devRef .tc main_arg9))).trans (((W4_of_ne m ρ c main_arg9 (by decide))).trans (((by host_keeps : W3 m ρ c (Proc.devRef .tc main_arg9) = W2 m ρ c (Proc.devRef .tc main_arg9))).trans (((W2_of_ne m ρ c main_arg9 (by decide))).trans ((by host_keeps : W1 m ρ c (Proc.devRef .tc main_arg9) = W0 m ρ c (Proc.devRef .tc main_arg9))))))))).trans rfl
theorem w7_arg10 : W7 m ρ c (Proc.devRef .tc main_arg10) = m ((c.tc : Thread nD τ).loc main_arg10) :=
  (((by host_keeps : W7 m ρ c (Proc.devRef .tc main_arg10) = W6 m ρ c (Proc.devRef .tc main_arg10))).trans (((W6_of_ne m ρ c main_arg10 (by decide))).trans (((by host_keeps : W5 m ρ c (Proc.devRef .tc main_arg10) = W4 m ρ c (Proc.devRef .tc main_arg10))).trans (((W4_of_ne m ρ c main_arg10 (by decide))).trans (((by host_keeps : W3 m ρ c (Proc.devRef .tc main_arg10) = W2 m ρ c (Proc.devRef .tc main_arg10))).trans (((W2_of_ne m ρ c main_arg10 (by decide))).trans ((by host_keeps : W1 m ρ c (Proc.devRef .tc main_arg10) = W0 m ρ c (Proc.devRef .tc main_arg10))))))))).trans rfl
theorem w7_arg11 : W7 m ρ c (Proc.devRef .tc main_arg11) = m ((c.tc : Thread nD τ).loc main_arg11) :=
  (((by host_keeps : W7 m ρ c (Proc.devRef .tc main_arg11) = W6 m ρ c (Proc.devRef .tc main_arg11))).trans (((W6_of_ne m ρ c main_arg11 (by decide))).trans (((by host_keeps : W5 m ρ c (Proc.devRef .tc main_arg11) = W4 m ρ c (Proc.devRef .tc main_arg11))).trans (((W4_of_ne m ρ c main_arg11 (by decide))).trans (((by host_keeps : W3 m ρ c (Proc.devRef .tc main_arg11) = W2 m ρ c (Proc.devRef .tc main_arg11))).trans (((W2_of_ne m ρ c main_arg11 (by decide))).trans ((by host_keeps : W1 m ρ c (Proc.devRef .tc main_arg11) = W0 m ρ c (Proc.devRef .tc main_arg11))))))))).trans rfl
theorem w8_arg3 : W8 m ρ c (Proc.devRef .tc main_arg3) = m ((c.tc : Thread nD τ).loc main_arg3) :=
  (((W8_of_ne m ρ c main_arg3 (by decide))).trans (((by host_keeps : W7 m ρ c (Proc.devRef .tc main_arg3) = W6 m ρ c (Proc.devRef .tc main_arg3))).trans (((W6_of_ne m ρ c main_arg3 (by decide))).trans (((by host_keeps : W5 m ρ c (Proc.devRef .tc main_arg3) = W4 m ρ c (Proc.devRef .tc main_arg3))).trans (((W4_of_ne m ρ c main_arg3 (by decide))).trans (((by host_keeps : W3 m ρ c (Proc.devRef .tc main_arg3) = W2 m ρ c (Proc.devRef .tc main_arg3))).trans (((W2_of_ne m ρ c main_arg3 (by decide))).trans ((by host_keeps : W1 m ρ c (Proc.devRef .tc main_arg3) = W0 m ρ c (Proc.devRef .tc main_arg3)))))))))).trans rfl

/-! ## The first stretch -/

theorem w1_v1 : W1 m ρ c (Proc.devRef .tc main_v1) = srcIdx (m ((c.tc : Thread nD τ).loc main_arg1)) := by
  show StableHlo.after hostOps0 (W0 m ρ c) (Proc.devRef .tc main_v1) = _
  dsimp only [hostOps0]
  after_results
  rfl

theorem w1_v3 : W1 m ρ c (Proc.devRef .tc main_v3) = dstIdx (m ((c.tc : Thread nD τ).loc main_arg1)) := by
  show StableHlo.after hostOps0 (W0 m ρ c) (Proc.devRef .tc main_v3) = _
  dsimp only [hostOps0]
  after_results
  rfl

theorem w1_v11 : W1 m ρ c (Proc.devRef .tc main_v11) = laneDense (gathered (m ((c.tc : Thread nD τ).loc main_arg0)) (srcIdx (m ((c.tc : Thread nD τ).loc main_arg1)))) := by
  show StableHlo.after hostOps0 (W0 m ρ c) (Proc.devRef .tc main_v11) = _
  dsimp only [hostOps0]
  after_results
  rfl

theorem w1_v12 : W1 m ρ c (Proc.devRef .tc main_v12) = laneDense (m ((c.tc : Thread nD τ).loc main_arg2)) := by
  show StableHlo.after hostOps0 (W0 m ρ c) (Proc.devRef .tc main_v12) = _
  dsimp only [hostOps0]
  after_results
  rfl

/-! ## The first layer -/

theorem w2_v13 : W2 m ρ c (Proc.devRef .tc main_v13)
    = rectified (laneDense (gathered (m ((c.tc : Thread nD τ).loc main_arg0)) (srcIdx (m ((c.tc : Thread nD τ).loc main_arg1))))) (laneDense (m ((c.tc : Thread nD τ).loc main_arg2))) := by
  refine ((W2_arr m ρ c 2).trans (EdgeRegion.array0 (V1 m ρ) c)).trans ?_
  show EdgeRegion.rectSum (W1 m ρ c (Proc.devRef .tc main_v11)) (W1 m ρ c (Proc.devRef .tc main_v12)) = _
  rw [w1_v11, w1_v12]
  rfl

theorem w3_v17 : W3 m ρ c (Proc.devRef .tc main_v17)
    = aggrOf (dstIdx (m ((c.tc : Thread nD τ).loc main_arg1))) (msgDense (gathered (m ((c.tc : Thread nD τ).loc main_arg0)) (srcIdx (m ((c.tc : Thread nD τ).loc main_arg1)))) (m ((c.tc : Thread nD τ).loc main_arg2))) := by
  have e : W3 m ρ c (Proc.devRef .tc main_v17)
      = aggrOf (W2 m ρ c (Proc.devRef .tc main_v3)) (rowsBack (W2 m ρ c (Proc.devRef .tc main_v13))) := by
    show StableHlo.after hostOps1 (W2 m ρ c) (Proc.devRef .tc main_v17) = _
    dsimp only [hostOps1]
    after_results
    rfl
  rw [e, w2_v13, (W2_of_ne m ρ c main_v3 (by decide)).trans (w1_v3 m ρ c)]
  rfl

theorem w4_v18 : W4 m ρ c (Proc.devRef .tc main_v18)
    = nodes1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  refine ((W4_arr m ρ c 6).trans (MlpRegion.array1 (V3 m ρ) c)).trans ?_
  show outFloor (M := 100000) (K := 16) (N := 16) (P := 16)
      (rowsSum (W3 m ρ c (Proc.devRef .tc main_arg0)) (W3 m ρ c (Proc.devRef .tc main_v17)))
      (W3 m ρ c (Proc.devRef .tc main_arg4)) (shapeCast S1x16 (W3 m ρ c (Proc.devRef .tc main_arg5)) shapeCasts_S16_S1x16)
      (W3 m ρ c (Proc.devRef .tc main_arg6)) (shapeCast S1x16 (W3 m ρ c (Proc.devRef .tc main_arg7)) shapeCasts_S16_S1x16) = _
  rw [w3_arg0, w3_v17, w3_arg4, w3_arg5, w3_arg6, w3_arg7]
  rfl

/-! ## The second layer -/

theorem w4_v1 : W4 m ρ c (Proc.devRef .tc main_v1) = srcIdx (m ((c.tc : Thread nD τ).loc main_arg1)) :=
  (((W4_of_ne m ρ c main_v1 (by decide))).trans (((by host_keeps : W3 m ρ c (Proc.devRef .tc main_v1) = W2 m ρ c (Proc.devRef .tc main_v1))).trans ((W2_of_ne m ρ c main_v1 (by decide))))).trans (w1_v1 m ρ c)

theorem w6_v3 : W6 m ρ c (Proc.devRef .tc main_v3) = dstIdx (m ((c.tc : Thread nD τ).loc main_arg1)) :=
  (((W6_of_ne m ρ c main_v3 (by decide))).trans (((by host_keeps : W5 m ρ c (Proc.devRef .tc main_v3) = W4 m ρ c (Proc.devRef .tc main_v3))).trans (((W4_of_ne m ρ c main_v3 (by decide))).trans (((by host_keeps : W3 m ρ c (Proc.devRef .tc main_v3) = W2 m ρ c (Proc.devRef .tc main_v3))).trans ((W2_of_ne m ρ c main_v3 (by decide))))))).trans (w1_v3 m ρ c)

theorem w7_v18 : W7 m ρ c (Proc.devRef .tc main_v18)
    = nodes1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  (((by host_keeps : W7 m ρ c (Proc.devRef .tc main_v18) = W6 m ρ c (Proc.devRef .tc main_v18))).trans (((W6_of_ne m ρ c main_v18 (by decide))).trans ((by host_keeps : W5 m ρ c (Proc.devRef .tc main_v18) = W4 m ρ c (Proc.devRef .tc main_v18))))).trans (w4_v18 m ρ c)

theorem w5_v26 : W5 m ρ c (Proc.devRef .tc main_v26)
    = laneDense (gathered (nodes1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (srcIdx (m ((c.tc : Thread nD τ).loc main_arg1)))) := by
  have e : W5 m ρ c (Proc.devRef .tc main_v26)
      = laneDense (gathered (W4 m ρ c (Proc.devRef .tc main_v18)) (W4 m ρ c (Proc.devRef .tc main_v1))) := by
    show StableHlo.after hostOps2 (W4 m ρ c) (Proc.devRef .tc main_v26) = _
    dsimp only [hostOps2]
    after_results
    rfl
  rw [e, w4_v18, w4_v1]

theorem w5_v27 : W5 m ρ c (Proc.devRef .tc main_v27) = laneDense (m ((c.tc : Thread nD τ).loc main_arg2)) := by
  have e : W5 m ρ c (Proc.devRef .tc main_v27) = laneDense (W4 m ρ c (Proc.devRef .tc main_arg2)) := by
    show StableHlo.after hostOps2 (W4 m ρ c) (Proc.devRef .tc main_v27) = _
    dsimp only [hostOps2]
    after_results
    rfl
  rw [e, w4_arg2]

theorem w6_v28 : W6 m ρ c (Proc.devRef .tc main_v28)
    = rectified (laneDense (gathered (nodes1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (srcIdx (m ((c.tc : Thread nD τ).loc main_arg1)))))
        (laneDense (m ((c.tc : Thread nD τ).loc main_arg2))) := by
  refine ((W6_arr m ρ c 2).trans (EdgeRegion.array2 (V5 m ρ) c)).trans ?_
  show EdgeRegion.rectSum (W5 m ρ c (Proc.devRef .tc main_v26)) (W5 m ρ c (Proc.devRef .tc main_v27)) = _
  rw [w5_v26, w5_v27]
  rfl

theorem w7_v32 : W7 m ρ c (Proc.devRef .tc main_v32)
    = aggrOf (dstIdx (m ((c.tc : Thread nD τ).loc main_arg1))) (msgDense (gathered (nodes1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (srcIdx (m ((c.tc : Thread nD τ).loc main_arg1)))) (m ((c.tc : Thread nD τ).loc main_arg2))) := by
  have e : W7 m ρ c (Proc.devRef .tc main_v32)
      = aggrOf (W6 m ρ c (Proc.devRef .tc main_v3)) (rowsBack (W6 m ρ c (Proc.devRef .tc main_v28))) := by
    show StableHlo.after hostOps3 (W6 m ρ c) (Proc.devRef .tc main_v32) = _
    dsimp only [hostOps3]
    after_results
    rfl
  rw [e, w6_v28, w6_v3]
  rfl

theorem w8_v33 : W8 m ρ c (Proc.devRef .tc main_v33)
    = nodes2 (nodes1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg1)) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) := by
  refine ((W8_arr m ρ c 6).trans (MlpRegion.array3 (V7 m ρ) c)).trans ?_
  show outPlain (M := 100000) (K := 16) (N := 6) (P := 6)
      (rowsSum (W7 m ρ c (Proc.devRef .tc main_v18)) (W7 m ρ c (Proc.devRef .tc main_v32)))
      (W7 m ρ c (Proc.devRef .tc main_arg8)) (shapeCast S1x6 (W7 m ρ c (Proc.devRef .tc main_arg9)) shapeCasts_S6_S1x6)
      (W7 m ρ c (Proc.devRef .tc main_arg10)) (shapeCast S1x6 (W7 m ρ c (Proc.devRef .tc main_arg11)) shapeCasts_S6_S1x6) = _
  rw [w7_v18, w7_v32, w7_arg8, w7_arg9, w7_arg10, w7_arg11]
  rfl

/-! ## The pooling and the log-softmax -/

theorem w9_v45 : W9 m ρ c (Proc.devRef .tc main_v45)
    = pooled (W8 m ρ c (Proc.devRef .tc main_v33)) (W8 m ρ c (Proc.devRef .tc main_arg3)) := by
  show StableHlo.after hostOps4 (W8 m ρ c) (Proc.devRef .tc main_v45) = _
  dsimp only [hostOps4]
  after_results
  rfl

set_option maxHeartbeats 1000000 in
theorem w10_v46 : W10 m ρ c (Proc.devRef .tc main_v46) = logSoftmax (W9 m ρ c (Proc.devRef .tc main_v45)) := by
  show StableHlo.after hostOps4_1 (W9 m ρ c) (Proc.devRef .tc main_v46) = _
  dsimp only [hostOps4_1]
  after_results_simp
  rfl

/-- The result buffer at the return, as one function of the twelve arguments at the launch. -/
theorem value : W10 m ρ c (Proc.devRef .tc main_v46)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [w10_v46, w9_v45, w8_v33, w8_arg3]
  rfl

end Cert.KernelIdeal.FoldValue

end
-- ==== Proof.RefStages.lean ====
/-
  The reference program's result, stage by stage.

  The reference is one straight line of host operations. Its result is the composition of a few stages, each a
  function of arrays: the source and target node of every edge read out of the edge list; a layer's messages (gather
  the source rows, add the edge attributes, floor at zero); their sum per target node; a two-layer perceptron on the
  node features plus that sum (each layer a product with the weights plus a bias row, the first floored at zero, the
  second floored or not); the per-graph mean (sum per graph over the larger of the node count and one); the row-wise
  log-softmax. The reference's result is these stages composed, by unfolding.
-/
import proofs.«131487_j53807350284451_2_alg».proof.Proof.Gen.ReferenceIdeal.Run
import Idealize.ShloMosaic.PureOps.Ideal

set_option maxRecDepth 65536

noncomputable section

namespace Cert.ReferenceIdeal.Stages

open Cert.ReferenceIdeal Cert.ReferenceIdeal.Gen Idealize.ShloMosaic Idealize.ShloMosaic.TcCoe Idealize.SL.Sem

/-- Float and integer arrays of a shape, at the ideal values. -/
abbrev FV (s : Shape) : Type := FVec Ideal s .f32
abbrev IV (s : Shape) : Type := IVec s 32

/-- Row 0 of the edge list: every edge's source node. -/
def srcIdx (ei : IV S2x6400000) : IV S6400000 :=
  shapeCast _ (extractStridedSlice S1x6400000 ![0, 0] ei slices_S2x6400000_S1x6400000_0_0) shapeCasts_S1x6400000_S6400000

/-- Row 1 of the edge list: every edge's target node. -/
def dstIdx (ei : IV S2x6400000) : IV S6400000 :=
  shapeCast _ (extractStridedSlice S1x6400000 ![1, 0] ei slices_S2x6400000_S1x6400000_1_0) shapeCasts_S1x6400000_S6400000

/-- The source nodes as a column of gather indices, a negative one counted from the end. -/
def srcCol (s : IV S6400000) : IV S6400000x1 :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 100000#32))) s)

/-- Every edge's source row of the node features. -/
def gathered (h : FV S100000x16) (s : IV S6400000) : FV S6400000x16 :=
  Host.gather gather_S100000x16_S6400000x1_S6400000x16_1_0_n_n_0_1_116 h (srcCol s)

/-- A layer's messages: source row plus edge attributes, floored at zero. -/
def msgOf (g ea : FV S6400000x16) : FV S6400000x16 :=
  maximumf (addf g ea) (broadcastInDim S6400000x16 ![] bcast_S_S6400000x16 (constant S_ .f32 0x00000000#32))

/-- The messages summed per target node. -/
def aggrOf (d : IV S6400000) (msgs : FV S6400000x16) : FV S100000x16 :=
  Host.scatterAdd scatter_S100000x16_S6400000x1_S6400000x16_1_0_0_1
    (broadcastInDim S100000x16 ![] bcast_S_S100000x16 (constant S_ .f32 0x00000000#32))
    (broadcastInDim S6400000x1 ![0] bcast_S6400000_S6400000x1_0 d) msgs

/-- The first layer's perceptron, both layers floored at zero. -/
def layerA (h : FV S100000x16) (wa : FV S16x16) (ba : FV S16) (wb : FV S16x16) (bb : FV S16) : FV S100000x16 :=
  maximumf (addf (Host.dotGeneral dot_S100000x16_S16x16_S100000x16_1_0_0_1_n_n none
      (maximumf (addf (Host.dotGeneral dot_S100000x16_S16x16_S100000x16_1_0_0_1_n_n none h wa)
          (broadcastInDim S100000x16 ![0, 1] bcast_S1x16_S100000x16_0_1 (broadcastInDim S1x16 ![1] bcast_S16_S1x16_1 ba)))
        (broadcastInDim S100000x16 ![] bcast_S_S100000x16 (constant S_ .f32 0x00000000#32))) wb)
      (broadcastInDim S100000x16 ![0, 1] bcast_S1x16_S100000x16_0_1 (broadcastInDim S1x16 ![1] bcast_S16_S1x16_1 bb)))
    (broadcastInDim S100000x16 ![] bcast_S_S100000x16 (constant S_ .f32 0x00000000#32))

/-- The second layer's perceptron: the inner layer floored at zero, the outer not. -/
def layerB (h : FV S100000x16) (wa : FV S16x6) (ba : FV S6) (wb : FV S6x6) (bb : FV S6) : FV S100000x6 :=
  addf (Host.dotGeneral dot_S100000x6_S6x6_S100000x6_1_0_0_1_n_n none
      (maximumf (addf (Host.dotGeneral dot_S100000x16_S16x6_S100000x6_1_0_0_1_n_n none h wa)
          (broadcastInDim S100000x6 ![0, 1] bcast_S1x6_S100000x6_0_1 (broadcastInDim S1x6 ![1] bcast_S6_S1x6_1 ba)))
        (broadcastInDim S100000x6 ![] bcast_S_S100000x6 (constant S_ .f32 0x00000000#32))) wb)
    (broadcastInDim S100000x6 ![0, 1] bcast_S1x6_S100000x6_0_1 (broadcastInDim S1x6 ![1] bcast_S6_S1x6_1 bb))

/-- The per-graph mean of the node rows: the sum per graph over the larger of the graph's node count and one. -/
def pooled (h2 : FV S100000x6) (b : IV S100000) : FV S1000x6 :=
  Host.divf (Host.scatterAdd scatter_S1000x6_S100000x1_S100000x6_1_0_0_1
      (broadcastInDim S1000x6 ![] bcast_S_S1000x6 (constant S_ .f32 0x00000000#32))
      (broadcastInDim S100000x1 ![0] bcast_S100000_S100000x1_0 b) h2)
    (broadcastInDim S1000x6 ![0, 1] bcast_S1000x1_S1000x6_0_1 (broadcastInDim S1000x1 ![0] bcast_S1000_S1000x1_0
      (maximumf (Host.scatterAdd scatter_S1000_S100000x1_S100000_n_0_0_1
          (broadcastInDim S1000 ![] bcast_S_S1000 (constant S_ .f32 0x00000000#32))
          (broadcastInDim S100000x1 ![0] bcast_S100000_S100000x1_0 b)
          (broadcastInDim S100000 ![] bcast_S_S100000 (constant S_ .f32 0x3F800000#32)))
        (broadcastInDim S1000 ![] bcast_S_S1000 (constant S_ .f32 0x3F800000#32)))))

/-- A row minus its maximum. -/
def shifted (p : FV S1000x6) : FV S1000x6 :=
  subf p (broadcastInDim S1000x6 ![0, 1] bcast_S1000x1_S1000x6_0_1 (broadcastInDim S1000x1 ![0] bcast_S1000_S1000x1_0
    (maximumf (broadcastInDim S1000 ![] bcast_S_S1000 (constant S_ .f32 0xFF800000#32))
      (Host.reduce FloatOps.maximumf p (constant S_ .f32 0xFF800000#32) reducesTo_S1000x6_S1000_d1 h_S_))))

/-- The row-wise log-softmax. -/
def logSoftmax (p : FV S1000x6) : FV S1000x6 :=
  subf (shifted p) (broadcastInDim S1000x6 ![0, 1] bcast_S1000x1_S1000x6_0_1
    (Host.log (broadcastInDim S1000x1 ![0] bcast_S1000_S1000x1_0
      (Host.reduceAdd (Host.exp (shifted p)) (constant S_ .f32 0x00000000#32) reducesTo_S1000x6_S1000_d1 h_S_))))

/-- The first layer's node features. -/
def nodes1 (x : FV S100000x16) (ei : IV S2x6400000) (ea : FV S6400000x16) (wa : FV S16x16) (ba : FV S16) (wb : FV S16x16)
    (bb : FV S16) : FV S100000x16 :=
  layerA (addf x (aggrOf (dstIdx ei) (msgOf (gathered x (srcIdx ei)) ea))) wa ba wb bb

/-- The second layer's node features. -/
def nodes2 (h : FV S100000x16) (ei : IV S2x6400000) (ea : FV S6400000x16) (wa : FV S16x6) (ba : FV S6) (wb : FV S6x6)
    (bb : FV S6) : FV S100000x6 :=
  layerB (addf h (aggrOf (dstIdx ei) (msgOf (gathered h (srcIdx ei)) ea))) wa ba wb bb

/-- The whole function. -/
def out (a0 : FV S100000x16) (a1 : IV S2x6400000) (a2 : FV S6400000x16) (a3 : IV S100000) (a4 : FV S16x16) (a5 : FV S16)
    (a6 : FV S16x16) (a7 : FV S16) (a8 : FV S16x6) (a9 : FV S6) (a10 : FV S6x6) (a11 : FV S6) : FV S1000x6 :=
  logSoftmax (pooled (nodes2 (nodes1 a0 a1 a2 a4 a5 a6 a7) a1 a2 a8 a9 a10 a11) a3)

set_option maxHeartbeats 4000000 in
/-- The reference's result is the stages composed. -/
theorem result_eq (m : (ℓ : Loc nD τ sig) → Buf (Elt Ideal) ℓ) (c : Dev nD) :
    Cert.ReferenceIdeal.Value.res_main_v65 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v65
  rfl

end Cert.ReferenceIdeal.Stages

end
-- ==== Proof.Bridge.lean ====
/-
  The kernel's stages and the reference's stages are one function.

  Stage by stage: the source and target nodes, the gather, the sum per target node, the pooling and the log-softmax are
  the same host operations in both programs. The messages: a reshape is a re-indexing, the rectified sum is entrywise,
  so forming it on the lane-dense layout and laying it back is forming it in place. The perceptrons: the host's
  `dot_general`, twice-broadcast bias and broadcast zero denote the same row-wise perceptron the kernel's blocks compute.
-/
import proofs.«131487_j53807350284451_2_alg».proof.Proof.RefStages
import proofs.«131487_j53807350284451_2_alg».proof.Proof.KernelStages
import proofs.«131487_j53807350284451_2_alg».proof.Proof.LibTwoLayer
import Idealize.ShloMosaic.Lib.Pipeline.Value

set_option maxRecDepth 16384

noncomputable section

namespace Cert.Bridge

open Idealize.ShloMosaic Cert.Mlp Cert.LibPlainDot Cert.LibRowBias

/-- Laying the arrays lane-dense, taking the rectified sum and laying it back is the rectified sum in place: the
    reference's messages. -/
theorem msg_eq (g ea : Cert.KernelIdeal.Stages.FV Cert.KernelIdeal.S6400000x16) :
    Cert.KernelIdeal.Stages.msgDense g ea = Cert.ReferenceIdeal.Stages.msgOf g ea := by
  have e : Cert.KernelIdeal.Stages.msgDense g ea
      = Cert.KernelIdeal.Stages.rectified
          (shapeCast Cert.KernelIdeal.S6400000x16 (shapeCast Cert.KernelIdeal.S800000x128 g Cert.KernelIdeal.Gen.shapeCasts_S6400000x16_S800000x128) Cert.KernelIdeal.Gen.shapeCasts_S800000x128_S6400000x16)
          (shapeCast Cert.KernelIdeal.S6400000x16 (shapeCast Cert.KernelIdeal.S800000x128 ea Cert.KernelIdeal.Gen.shapeCasts_S6400000x16_S800000x128) Cert.KernelIdeal.Gen.shapeCasts_S800000x128_S6400000x16) := rfl
  rw [e, shapeCast_shapeCast, shapeCast_shapeCast]
  rfl

/-- The reference's first perceptron is the row-wise perceptron with both floors. -/
theorem layerA_eq (h : Cert.ReferenceIdeal.Stages.FV Cert.ReferenceIdeal.S100000x16) (wa : Cert.ReferenceIdeal.Stages.FV Cert.ReferenceIdeal.S16x16)
    (ba : Cert.ReferenceIdeal.Stages.FV Cert.ReferenceIdeal.S16) (wb : Cert.ReferenceIdeal.Stages.FV Cert.ReferenceIdeal.S16x16)
    (bb : Cert.ReferenceIdeal.Stages.FV Cert.ReferenceIdeal.S16) :
    Cert.ReferenceIdeal.Stages.layerA h wa ba wb bb
      = outFloor (M := 100000) (K := 16) (N := 16) (P := 16) h wa (Cert.KernelIdeal.Stages.row16 ba) wb (Cert.KernelIdeal.Stages.row16 bb) := by
  unfold Cert.ReferenceIdeal.Stages.layerA outFloor Cert.Mlp.hidden Cert.KernelIdeal.Stages.row16
  exact (host_layer_floor (M := 100000) (K := 16) (N := 16) _ wb bb
      Cert.ReferenceIdeal.dot_S100000x16_S16x16_S100000x16_1_0_0_1_n_n rfl Cert.ReferenceIdeal.Gen.bcast_S_S100000x16
      Cert.ReferenceIdeal.Gen.bcast_S16_S1x16_1 Cert.ReferenceIdeal.Gen.bcast_S1x16_S100000x16_0_1 Cert.KernelIdeal.Gen.shapeCasts_S16_S1x16).trans
    (congrArg (fun t => rowBiasFloor zero (rowsTimes t wb) (shapeCast Cert.KernelIdeal.S1x16 bb Cert.KernelIdeal.Gen.shapeCasts_S16_S1x16))
      (host_layer_floor (M := 100000) (K := 16) (N := 16) h wa ba
        Cert.ReferenceIdeal.dot_S100000x16_S16x16_S100000x16_1_0_0_1_n_n rfl Cert.ReferenceIdeal.Gen.bcast_S_S100000x16
        Cert.ReferenceIdeal.Gen.bcast_S16_S1x16_1 Cert.ReferenceIdeal.Gen.bcast_S1x16_S100000x16_0_1 Cert.KernelIdeal.Gen.shapeCasts_S16_S1x16))

/-- The reference's second perceptron is the row-wise perceptron with the inner floor only. -/
theorem layerB_eq (h : Cert.ReferenceIdeal.Stages.FV Cert.ReferenceIdeal.S100000x16) (wa : Cert.ReferenceIdeal.Stages.FV Cert.ReferenceIdeal.S16x6)
    (ba : Cert.ReferenceIdeal.Stages.FV Cert.ReferenceIdeal.S6) (wb : Cert.ReferenceIdeal.Stages.FV Cert.ReferenceIdeal.S6x6)
    (bb : Cert.ReferenceIdeal.Stages.FV Cert.ReferenceIdeal.S6) :
    Cert.ReferenceIdeal.Stages.layerB h wa ba wb bb
      = outPlain (M := 100000) (K := 16) (N := 6) (P := 6) h wa (Cert.KernelIdeal.Stages.row6 ba) wb (Cert.KernelIdeal.Stages.row6 bb) := by
  unfold Cert.ReferenceIdeal.Stages.layerB outPlain Cert.Mlp.hidden Cert.KernelIdeal.Stages.row6
  exact (host_layer_plain (M := 100000) (K := 6) (N := 6) _ wb bb
      Cert.ReferenceIdeal.dot_S100000x6_S6x6_S100000x6_1_0_0_1_n_n rfl
      Cert.ReferenceIdeal.Gen.bcast_S6_S1x6_1 Cert.ReferenceIdeal.Gen.bcast_S1x6_S100000x6_0_1 Cert.KernelIdeal.Gen.shapeCasts_S6_S1x6).trans
    (congrArg (fun t => rowBias (rowsTimes t wb) (shapeCast Cert.KernelIdeal.S1x6 bb Cert.KernelIdeal.Gen.shapeCasts_S6_S1x6))
      (host_layer_floor (M := 100000) (K := 16) (N := 6) h wa ba
        Cert.ReferenceIdeal.dot_S100000x16_S16x6_S100000x6_1_0_0_1_n_n rfl Cert.ReferenceIdeal.Gen.bcast_S_S100000x6
        Cert.ReferenceIdeal.Gen.bcast_S6_S1x6_1 Cert.ReferenceIdeal.Gen.bcast_S1x6_S100000x6_0_1 Cert.KernelIdeal.Gen.shapeCasts_S6_S1x6))

/-- The first layer's node features agree. -/
theorem nodes1_eq (x : Cert.KernelIdeal.Stages.FV Cert.KernelIdeal.S100000x16) (ei : Cert.KernelIdeal.Stages.IV Cert.KernelIdeal.S2x6400000)
    (ea : Cert.KernelIdeal.Stages.FV Cert.KernelIdeal.S6400000x16) (wa : Cert.KernelIdeal.Stages.FV Cert.KernelIdeal.S16x16)
    (ba : Cert.KernelIdeal.Stages.FV Cert.KernelIdeal.S16) (wb : Cert.KernelIdeal.Stages.FV Cert.KernelIdeal.S16x16)
    (bb : Cert.KernelIdeal.Stages.FV Cert.KernelIdeal.S16) :
    Cert.KernelIdeal.Stages.nodes1 x ei ea wa ba wb bb = Cert.ReferenceIdeal.Stages.nodes1 x ei ea wa ba wb bb := by
  unfold Cert.KernelIdeal.Stages.nodes1 Cert.ReferenceIdeal.Stages.nodes1
  rw [layerA_eq, msg_eq]
  rfl

/-- The second layer's node features agree. -/
theorem nodes2_eq (h : Cert.KernelIdeal.Stages.FV Cert.KernelIdeal.S100000x16) (ei : Cert.KernelIdeal.Stages.IV Cert.KernelIdeal.S2x6400000)
    (ea : Cert.KernelIdeal.Stages.FV Cert.KernelIdeal.S6400000x16) (wa : Cert.KernelIdeal.Stages.FV Cert.KernelIdeal.S16x6)
    (ba : Cert.KernelIdeal.Stages.FV Cert.KernelIdeal.S6) (wb : Cert.KernelIdeal.Stages.FV Cert.KernelIdeal.S6x6)
    (bb : Cert.KernelIdeal.Stages.FV Cert.KernelIdeal.S6) :
    Cert.KernelIdeal.Stages.nodes2 h ei ea wa ba wb bb = Cert.ReferenceIdeal.Stages.nodes2 h ei ea wa ba wb bb := by
  unfold Cert.KernelIdeal.Stages.nodes2 Cert.ReferenceIdeal.Stages.nodes2
  rw [layerB_eq, msg_eq]
  rfl

/-- The two programs' results are one function of the twelve arguments. -/
theorem out_eq (a0 : Cert.KernelIdeal.Stages.FV Cert.KernelIdeal.S100000x16) (a1 : Cert.KernelIdeal.Stages.IV Cert.KernelIdeal.S2x6400000)
    (a2 : Cert.KernelIdeal.Stages.FV Cert.KernelIdeal.S6400000x16) (a3 : Cert.KernelIdeal.Stages.IV Cert.KernelIdeal.S100000)
    (a4 : Cert.KernelIdeal.Stages.FV Cert.KernelIdeal.S16x16) (a5 : Cert.KernelIdeal.Stages.FV Cert.KernelIdeal.S16)
    (a6 : Cert.KernelIdeal.Stages.FV Cert.KernelIdeal.S16x16) (a7 : Cert.KernelIdeal.Stages.FV Cert.KernelIdeal.S16)
    (a8 : Cert.KernelIdeal.Stages.FV Cert.KernelIdeal.S16x6) (a9 : Cert.KernelIdeal.Stages.FV Cert.KernelIdeal.S6)
    (a10 : Cert.KernelIdeal.Stages.FV Cert.KernelIdeal.S6x6) (a11 : Cert.KernelIdeal.Stages.FV Cert.KernelIdeal.S6) :
    Cert.KernelIdeal.Stages.out a0 a1 a2 a3 a4 a5 a6 a7 a8 a9 a10 a11
      = Cert.ReferenceIdeal.Stages.out a0 a1 a2 a3 a4 a5 a6 a7 a8 a9 a10 a11 := by
  unfold Cert.KernelIdeal.Stages.out Cert.ReferenceIdeal.Stages.out
  rw [nodes1_eq, nodes2_eq]
  rfl

end Cert.Bridge

end
-- ==== Proof.lean ====
/-
  The certificate of a two-layer edge-conditioned graph network with per-graph mean pooling and a log-softmax.

  Both programs gather every edge's source row of the node features, add the edge attributes, floor at zero, sum the
  messages per target node, add the sum to the node features and run a two-layer perceptron; they do this twice, then
  average the node rows per graph and take the row-wise log-softmax. The kernel forms the messages in a pipelined
  region on a lane-dense re-layout of the edge arrays and runs each perceptron in a pipelined region, 5000 rows a grid
  point, its matrix products on bf16 operands; the reference does everything with whole-array host operations.

  On the extended reals the narrowing to bf16 is the identity, a reshape is a re-indexing that an entrywise operation
  commutes with, and a row of the perceptron depends on the same row of its input only. So the two results are one
  function of the twelve arguments; no law that needs finite values is used, and the precondition is never opened.

  The three frames are the generated ones (the reference's is its generated run with the result dropped); the
  idealization rewrote nothing, so `preserves` is trivial.
-/
import proofs.«131487_j53807350284451_2_alg».proof.Defs
import proofs.«131487_j53807350284451_2_alg».proof.Proof.Gen.Kernel
import proofs.«131487_j53807350284451_2_alg».proof.Proof.Gen.Kernel.Skeleton
import proofs.«131487_j53807350284451_2_alg».proof.Proof.Gen.Kernel.Launch
import proofs.«131487_j53807350284451_2_alg».proof.Proof.Gen.Kernel.Points
import proofs.«131487_j53807350284451_2_alg».proof.Proof.Gen.Kernel.Frame
import proofs.«131487_j53807350284451_2_alg».proof.Proof.Gen.KernelIdeal
import proofs.«131487_j53807350284451_2_alg».proof.Proof.Gen.KernelIdeal.Skeleton
import proofs.«131487_j53807350284451_2_alg».proof.Proof.Gen.KernelIdeal.Launch
import proofs.«131487_j53807350284451_2_alg».proof.Proof.Gen.KernelIdeal.Points
import proofs.«131487_j53807350284451_2_alg».proof.Proof.Gen.KernelIdeal.Frame
import proofs.«131487_j53807350284451_2_alg».proof.Proof.Gen.ReferenceIdeal
import proofs.«131487_j53807350284451_2_alg».proof.Proof.Gen.Pre_finite_inputs
import proofs.«131487_j53807350284451_2_alg».proof.Proof.Gen.ReferenceIdeal.Run
import proofs.«131487_j53807350284451_2_alg».proof.Proof.Gen.ReferenceIdeal.Read
import proofs.«131487_j53807350284451_2_alg».proof.Proof.KernelRun
import proofs.«131487_j53807350284451_2_alg».proof.Proof.FoldValue
import proofs.«131487_j53807350284451_2_alg».proof.Proof.RefStages
import proofs.«131487_j53807350284451_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with their results at one function of the
    arguments: the kernel's fold of buffer contents read stage by stage, the reference's composed term, and the
    stage-by-stage agreement of the two. -/
theorem algebraic : Cert.algebraic_KernelIdeal_ReferenceIdeal := by
  intro m ρ m' ρ' _ hagree
  refine ⟨fun c => Cert.KernelIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.FoldValue.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Stages.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Bridge.out_eq _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
